-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x48x48 : Shape := ⟨4, ![16, 1024, 48, 48]⟩
abbrev S_ : Shape := ⟨0, ![]⟩

class Facts : Prop where
  bcast_S_S16x1024x48x48 : S_.BroadcastsInDim S16x1024x48x48 (![] : Fin 0 → Fin S16x1024x48x48.rank)
  reducesTo_S16x1024x48x48_S_d0_1_2_3 : S16x1024x48x48.ReducesTo [0, 1, 2, 3] S_
  h_S_ : 0 < S_.numel

variable [Facts]

def fn {F : FTy → Type} [FloatOps F] (main_arg0 : FVec F S16x1024x48x48 .f32) : IVec S_ 1 :=
  let main_v0 : FVec F S16x1024x48x48 .f32 := Host.absf main_arg0
  let main_cst : FVec F S_ .f32 := constant S_ .f32 0x7F800000#32
  let main_v1 : FVec F S16x1024x48x48 .f32 := broadcastInDim S16x1024x48x48 ![] bcast_S_S16x1024x48x48 main_cst
  let main_v2 : IVec S16x1024x48x48 1 := cmpf .olt main_v0 main_v1
  let main_c : IVec S_ 1 := constantI S_ 1 1#1
  let main_v3 : IVec S_ 1 := (fun x v => Host.reduce IntOp.andi x v reducesTo_S16x1024x48x48_S_d0_1_2_3 h_S_) main_v2 main_c
  main_v3
-- ==== Kernel.lean ====
abbrev S16x1024x48x48 : Shape := ⟨4, ![16, 1024, 48, 48]⟩
abbrev S16x1024x2304 : Shape := ⟨3, ![16, 1024, 2304]⟩
abbrev S1x256x2304 : Shape := ⟨3, ![1, 256, 2304]⟩
abbrev S1x1024x2304 : Shape := ⟨3, ![1, 1024, 2304]⟩
abbrev S256x2304 : Shape := ⟨2, ![256, 2304]⟩
abbrev S1024x2304 : Shape := ⟨2, ![1024, 2304]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S16x1024x48x48, .f32⟩
  | .hbm, ⟨1, _⟩ => ⟨S16x1024x2304, .f32⟩
  | .hbm, ⟨2, _⟩ => ⟨S16x1024x2304, .f32⟩
  | .hbm, ⟨3, _⟩ => ⟨S16x1024x48x48, .f32⟩
  | .local _ .vmem, ⟨0, _⟩ => ⟨S1x256x2304, .f32⟩
  | .local _ .vmem, ⟨1, _⟩ => ⟨S1x256x2304, .f32⟩
  | .local _ .vmem, ⟨2, _⟩ => ⟨S1x1024x2304, .f32⟩
  | .local _ .vmem, ⟨3, _⟩ => ⟨S1x1024x2304, .f32⟩
  | .local _ .vmem, ⟨4, _⟩ => ⟨S1x256x2304, .f32⟩
  | .local _ .vmem, ⟨5, _⟩ => ⟨S1x256x2304, .f32⟩
  | _, _ => ⟨S16x1024x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x1024x48x48_S16x1024x2304 : S16x1024x48x48.ShapeCasts S16x1024x2304
  inb_S1x256x2304_S1x256x2304_0_0_0 : ∀ a, (![0, 0, 0] : Fin 3 → Nat) a + S1x256x2304.size a ≤ S1x256x2304.size a
  h_S1x256x2304 : 0 < S1x256x2304.numel
  shapeCasts_S1x256x2304_S256x2304 : S1x256x2304.ShapeCasts S256x2304
  inb_S1x1024x2304_S1x1024x2304_0_0_0 : ∀ a, (![0, 0, 0] : Fin 3 → Nat) a + S1x1024x2304.size a ≤ S1x1024x2304.size a
  h_S1x1024x2304 : 0 < S1x1024x2304.numel
  shapeCasts_S1x1024x2304_S1024x2304 : S1x1024x2304.ShapeCasts S1024x2304
  bitsLt_bf16_f32 : FTy.bits .bf16 < FTy.bits .f32
  reduces_S256x1024_S256 : S256x1024.Reduces [1] S256
  shapeCasts_S256_S256x1 : S256.ShapeCasts S256x1
  broadcasts_S256x1_S256x1024 : S256x1.Broadcasts S256x1024
  shapeCasts_S256x2304_S1x256x2304 : S256x2304.ShapeCasts S1x256x2304
  shapeCasts_S16x1024x2304_S16x1024x48x48 : S16x1024x2304.ShapeCasts S16x1024x48x48
  dot_S256x2304_S1024x2304_S256x1024_1_1_0_0_n_n_wf : DotDims.WF S256x2304 S1024x2304 S256x1024 [1] [1] [0] [0] [] []
  dot_S256x1024_S1024x2304_S256x2304_1_0_0_1_n_n_wf : DotDims.WF S256x1024 S1024x2304 S256x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2304.size a ≤ S16x1024x2304.size a
  hwx0_0 : ∀ i : grid0.Coords, EltTy.bits .f32 = 32 ∨ (Rect.block (s := S16x1024x2304) S1x256x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2304.size a ≤ S16x1024x2304.size a
  hwx0_1 : ∀ i : grid0.Coords, EltTy.bits .f32 = 32 ∨ (Rect.block (s := S16x1024x2304) S1x1024x2304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2304.size a ≤ S16x1024x2304.size a
  hwx0_2 : ∀ i : grid0.Coords, EltTy.bits .f32 = 32 ∨ (Rect.block (s := S16x1024x2304) S1x256x2304.size (cc0_transform_2 i) (hinb0_2 i)).WholeWords (EltTy.packing .f32)

variable [Facts₀]

def dot_S256x2304_S1024x2304_S256x1024_1_1_0_0_n_n : DotDims S256x2304 S1024x2304 S256x1024 where
  lhsContracting := [1]
  rhsContracting := [1]
  lhsNonContracting := [0]
  rhsNonContracting := [0]
  lhsBatch := []
  rhsBatch := []
  wf := dot_S256x2304_S1024x2304_S256x1024_1_1_0_0_n_n_wf
def dot_S256x1024_S1024x2304_S256x2304_1_0_0_1_n_n : DotDims S256x1024 S1024x2304 S256x2304 where
  lhsContracting := [1]
  rhsContracting := [0]
  lhsNonContracting := [0]
  rhsNonContracting := [1]
  lhsBatch := []
  rhsBatch := []
  wf := dot_S256x1024_S1024x2304_S256x2304_1_0_0_1_n_n_wf

abbrev win0_0 : Pipeline.Window sig grid0 :=
  Pipeline.Window.ofSpec (Memref.whole main_v0) S1x256x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x48x48 : Shape := ⟨4, ![16, 1024, 48, 48]⟩
abbrev S16x1024x2304 : Shape := ⟨3, ![16, 1024, 2304]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x1024x48x48, .f32⟩
  | .hbm, ⟨1, _⟩ => ⟨S16x1024x2304, .f32⟩
  | .hbm, ⟨2, _⟩ => ⟨S16x1024x1024, .f32⟩
  | .hbm, ⟨3, _⟩ => ⟨S_, .f32⟩
  | .hbm, ⟨4, _⟩ => ⟨S16x1024, .f32⟩
  | .hbm, ⟨5, _⟩ => ⟨S16x1024x1, .f32⟩
  | .hbm, ⟨6, _⟩ => ⟨S16x1024x1024, .f32⟩
  | .hbm, ⟨7, _⟩ => ⟨S16x1024x1024, .f32⟩
  | .hbm, ⟨8, _⟩ => ⟨S_, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024x1, .f32⟩
  | .hbm, ⟨14, _⟩ => ⟨S16x1024x1024, .f32⟩
  | .hbm, ⟨15, _⟩ => ⟨S16x1024x1024, .f32⟩
  | .hbm, ⟨16, _⟩ => ⟨S16x1024x1024, .f32⟩
  | .hbm, ⟨17, _⟩ => ⟨S_, .f32⟩
  | .hbm, ⟨18, _⟩ => ⟨S16x1024, .f32⟩
  | .hbm, ⟨19, _⟩ => ⟨S16x1024x1, .f32⟩
  | .hbm, ⟨20, _⟩ => ⟨S16x1024x1024, .f32⟩
  | .hbm, ⟨21, _⟩ => ⟨S16x1024x1024, .f32⟩
  | .hbm, ⟨22, _⟩ => ⟨S16x1024x2304, .f32⟩
  | .hbm, ⟨23, _⟩ => ⟨S16x1024x48x48, .f32⟩
  | .hbm, ⟨24, _⟩ => ⟨S16x1024x48x48, .f32⟩
  | _, _ => ⟨S16x1024x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  shapeCasts_S16x1024x48x48_S16x1024x2304 : S16x1024x48x48.ShapeCasts S16x1024x2304
  reducesTo_S16x1024x1024_S16x1024_d2 : S16x1024x1024.ReducesTo [2] S16x1024
  h_S_ : 0 < S_.numel
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S_S16x1024 : S_.BroadcastsInDim S16x1024 (![] : Fin 0 → Fin S16x1024.rank)
  shapeCasts_S16x1024x2304_S16x1024x48x48 : S16x1024x2304.ShapeCasts S16x1024x48x48
  dot_S16x1024x2304_S16x1024x2304_S16x1024x1024_2_2_1_1_0_0_wf : DotDims.WF S16x1024x2304 S16x1024x2304 S16x1024x1024 [2] [2] [1] [1] [0] [0]
  dot_S16x1024x1024_S16x1024x2304_S16x1024x2304_2_1_1_2_0_0_wf : DotDims.WF S16x1024x1024 S16x1024x2304 S16x1024x2304 [2] [1] [1] [2] [0] [0]

variable [Facts₀]

def dot_S16x1024x2304_S16x1024x2304_S16x1024x1024_2_2_1_1_0_0 : DotDims S16x1024x2304 S16x1024x2304 S16x1024x1024 where
  lhsContracting := [2]
  rhsContracting := [2]
  lhsNonContracting := [1]
  rhsNonContracting := [1]
  lhsBatch := [0]
  rhsBatch := [0]
  wf := dot_S16x1024x2304_S16x1024x2304_S16x1024x1024_2_2_1_1_0_0_wf
def dot_S16x1024x1024_S16x1024x2304_S16x1024x2304_2_1_1_2_0_0 : DotDims S16x1024x1024 S16x1024x2304 S16x1024x2304 where
  lhsContracting := [2]
  rhsContracting := [1]
  lhsNonContracting := [1]
  rhsNonContracting := [2]
  lhsBatch := [0]
  rhsBatch := [0]
  wf := dot_S16x1024x1024_S16x1024x2304_S16x1024x2304_2_1_1_2_0_0_wf

class Facts : Prop extends Facts₀ where

variable [Facts]
-- ==== Proof.WordRegion.lean ====
/-
  The pipelined region of the channel-attention kernel, point by point.

  The region's grid is 16 x 4: point (b, ci) reads rows ci*256 .. ci*256+255 of batch b of the flattened
  input (the query tile), ALL 1024 rows of batch b of the same array (the keys and values), and writes
  rows ci*256 .. ci*256+255 of batch b of the result. Both input windows are blocks of ONE array, so the
  core holds that array in two halves of its share, one per window; the output window's array is held
  whole. At every point each input's buffer holds its block of the array as the region found it (the
  key/value block is fetched only when the batch changes, and is found in place otherwise), and the body
  leaves in the output buffer one function of the two input blocks: the body's single covering store.
-/
import proofs.«120363_j1735166787958_1_alg».proof.Proof.Gen.Kernel.Launch
import proofs.«120363_j1735166787958_1_alg».proof.Proof.Gen.Kernel.Skeleton
import proofs.«120363_j1735166787958_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The core's buffer contents when the region is entered: the launch contents after the one reshape that
    flattens the two spatial axes. -/
abbrev entry (c : Dev nD) : Valuation τ sig (Elt F) := StableHlo.after (List.flatten [hostOps0]) (fun b => m (c, b))
/-- The same at a TensorCore reference. -/
abbrev entryAt (c : Dev nD) (b : Ref sig .tc) : Buf (Elt F) ((c : Thread nD τ).loc b) := entry m c (Proc.devRef .tc b)

theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the flattening reshape, the region, and the reshape back: it reduces to the region continued
    by the last reshape, entered at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The flattening reshape does not write the argument array: the region finds it as launched. -/
theorem entryAt_arg (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The query window's buffer holds its block at every point, for any proof data over the entry contents
    whose body leaves the block in place. -/
theorem query_found {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key/value window's buffer holds its block at every point, fetched there (the batch changed) or
    not (the block index did not move). -/
theorem keys_found {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output buffer -/

abbrev wholeQ : Rect S1x256x2304 := Rect.unit (s := S1x256x2304) ![0, 0, 0] S1x256x2304.size inb_S1x256x2304_S1x256x2304_0_0_0
abbrev wholeK : Rect S1x1024x2304 := Rect.unit (s := S1x1024x2304) ![0, 0, 0] S1x1024x2304.size inb_S1x1024x2304_S1x1024x2304_0_0_0

/-- The output buffer after the body, from the two input blocks: its one store, of the whole buffer. -/
def bodyOut (xq : Vec F S1x256x2304 .f32) (xkv : Vec F S1x1024x2304 .f32) : Vec F S1x256x2304 .f32 :=
  View.canon [⟨wholeQ, k0_pay1 (View.ld xq wholeQ) (View.ld xkv wholeK)⟩]

/-- The one store covers the buffer. -/
theorem store_covers (p0 : Vec F S1x256x2304 .f32) (y : S1x256x2304.Idx) :
    ∃ pc ∈ ([⟨wholeQ, p0⟩] : List (View.Piece (Elt F) S1x256x2304 .f32)), y ∈ pc.1.set :=
  View.cover_of_tiled [⟨wholeQ, p0⟩] S1x256x2304.size (by rfl) y

/-! ## The body's triple -/

set_option maxHeartbeats 1000000 in
/-- The body on whole staging buffers, the inputs' at contents `xq`, `xkv` and the output's at anything:
    it runs to its end, the inputs' as they were and the output's at `bodyOut xq xkv`. -/
theorem body_runs (c : Dev nD) (E : Set ℕ) (i : grid0.Coords)
    (arg2 : Memref sig .tc .vmem S1x256x2304 .f32) (harg2 : arg2.IsWhole)
    (arg3 : Memref sig .tc .vmem S1x1024x2304 .f32) (harg3 : arg3.IsWhole)
    (arg4 : Memref sig .tc .vmem S1x256x2304 .f32) (harg4 : arg4.IsWhole)
    (xq : Vec F S1x256x2304 .f32) (xkv : Vec F S1x1024x2304 .f32) (K : PUnit → sProp 𝕄) :
    iprop(owns (c : Thread nD τ) arg2 fullShare xq ∗ owns (c : Thread nD τ) arg3 fullShare xkv ∗ (∃ d, owns (c : Thread nD τ) arg4 fullShare d)
        ∗ (iprop(owns (c : Thread nD τ) arg2 fullShare xq ∗ owns (c : Thread nD τ) arg3 fullShare xkv
            ∗ owns (c : Thread nD τ) arg4 fullShare (bodyOut xq xkv)) -∗ K ⟨⟩))
      ⊢ wp frame (wpE (defs₀ (F := F)) Variants.none c none) E (cc0__sparse_attn_kernel i arg2 harg2 arg3 harg3 arg4 harg4) K := by
  simp only [cc0__sparse_attn_kernel_eq_skeleton]; unfold cc0__sparse_attn_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- The proof data on core `c`: the arrays as the region finds them; after the body at point `t` each
    input's buffer at its block and the output's at `bodyOut` of the two blocks; the invariant the scoped
    rest and the generator register, untouched; nothing owed; the shared input array held in two halves,
    one per window that reads it. -/
def pipeData (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => bodyOut (blockAt m c 0 t) (blockAt m c 1 t)
  Φ _ := Pipeline.ΦA spec0 c
  q w := match w with
    | ⟨0, _⟩ => fullShare.left
    | ⟨1, _⟩ => fullShare.right
    | ⟨2, _⟩ => fullShare
  owed _ := 0

theorem entry_arrays (c : Dev nD) (w : Fin cfg0.W) : (pipeData m 0 c).A w = entryAt m c (Pipeline.arrRef spec0 w) := by
  dsimp only [pipeData]

theorem after_query (c : Dev nD) (t : Fin cfg0.N) : (pipeData m 0 c).after 0 t = blockAt m c 0 t := by dsimp only [pipeData]
theorem after_keys (c : Dev nD) (t : Fin cfg0.N) : (pipeData m 0 c).after 1 t = blockAt m c 1 t := by dsimp only [pipeData]
theorem after_out (c : Dev nD) (t : Fin cfg0.N) :
    (pipeData m 0 c).after 2 t = bodyOut (blockAt m c 0 t) (blockAt m c 1 t) := by dsimp only [pipeData]

theorem before_query (c : Dev nD) (t : Fin cfg0.N) (d) : (pipeData m 0 c).before 0 t d = blockAt m c 0 t :=
  query_found m (pipeData m 0 c) (entry_arrays m c 0) (after_query m c) t d
theorem before_keys (c : Dev nD) (t : Fin cfg0.N) (d) : (pipeData m 0 c).before 1 t d = blockAt m c 1 t :=
  keys_found m (pipeData m 0 c) (entry_arrays m c 1) (after_keys m c) t d

/-! ## The body obligation -/

/-- What the body is called with at point `t`, the windows one by one, -/
def bodyPre (c : Dev nD) (t : Fin cfg0.N) : sProp 𝕄 :=
  iprop((pipeData m 0 c).Φ t.castSucc ∗ (pipeData m 0 c).owesAt () t.castSucc
    ∗ (∃ d, owns (c : Thread nD τ) (st0_0 t) fullShare ((pipeData m 0 c).before 0 t d))
    ∗ (∃ d, owns (c : Thread nD τ) (st0_1 t) fullShare ((pipeData m 0 c).before 1 t d))
    ∗ (∃ d, owns (c : Thread nD τ) (st0_2 t) fullShare ((pipeData m 0 c).before 2 t d)))

/-- and what it returns. -/
def bodyPost (c : Dev nD) (t : Fin cfg0.N) : sProp 𝕄 :=
  iprop((pipeData m 0 c).Φ t.succ ∗ (pipeData m 0 c).owesAt () t.succ
    ∗ owns (c : Thread nD τ) (st0_0 t) fullShare ((pipeData m 0 c).after 0 t)
    ∗ owns (c : Thread nD τ) (st0_1 t) fullShare ((pipeData m 0 c).after 1 t)
    ∗ owns (c : Thread nD τ) (st0_2 t) fullShare ((pipeData m 0 c).after 2 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_keys]
  rw [show (pipeData m 0 c).Φ t.succ = (pipeData m 0 c).Φ t.castSucc from rfl,
    show (pipeData m 0 c).owesAt () t.succ = (pipeData m 0 c).owesAt () t.castSucc from rfl,
    after_query, after_keys, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (pipeData (F := F) m 0 c) (defs₀ (F := F)) Variants.none () Set.univ := fun t => by
  rw [bigSep_W0, bigSep_W0]
  exact body_at m c t

end Cert.Kernel.Region

end
-- ==== Proof.WordRun.lean ====
/-
  The run of the channel-attention kernel's program: the flattening reshape, the pipelined region, the
  reshape back.

  The region is entered holding the flattened input whole; it is split into two halves of its share, one
  for the query window and one for the key/value window, and the result array is held whole. After the
  last point the result array holds, block by block, what the body left at each point, and the last
  reshape reads it into the program's result; the argument array is touched by nobody.
-/
import proofs.«120363_j1735166787958_1_alg».proof.Proof.WordRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the core holds -/

/-- The pipeline's arrays at contents `G`, one by one: the flattened input twice, at the two halves of
    its share, and the result array whole. -/
theorem arrays_chain (c : Dev nD) (G : (w : Fin cfg0.W) → Buf (Elt F) ((cfg0.win w).arr.view.loc (c.tc : Thread nD τ))) :
    ((pipeData m 0 c).arrays G : sProp 𝕄)
      = iprop((((c.tc : Thread nD τ).loc main_v0) ↦{fullShare.left} G 0) ∗ (((c.tc : Thread nD τ).loc main_v0) ↦{fullShare.right} G 1)
          ∗ (((c.tc : Thread nD τ).loc main_v1) ↦{fullShare} G 2)) := by
  have h : ((pipeData m 0 c).arrays G : sProp 𝕄)
      = bigSep Finset.univ fun w => (((c.tc : Thread nD τ).loc (Pipeline.arrRef spec0 w)) ↦{(pipeData m 0 c).share w} G w : sProp 𝕄) := by
    unfold Pipeline.Dat.arrays
    exact bigSep_congr fun w _ => by rw [(arr_whole0 w).set_eq_univ]
  rw [h, bigSep_W0]
  rfl

/-- Entering the region: the flattened input, held whole, is split between the two windows that read it. -/
theorem split_shared (c : Dev nD) :
    (Pipeline.arrBufs (Ix := Unit) (Name := ℕ) (U := UR sig nD τ) (Lvl := ℕ) spec0 c (entryAt m c) : sProp 𝕄)
      ⊢ (pipeData m 0 c).arrays ((pipeData m 0 c).arrAt · 0) := by
  classical
  rw [arrays_chain]
  unfold Pipeline.arrBufs
  rw [bigSep_eq_bigSepL_of_eq [main_v0, main_v1] (by decide) (by decide)]
  simp only [bigSepL_cons_cons, bigSepL_singleton]
  rw [show (pipeData m 0 c).arrAt 0 0 = entryAt m c main_v0 from rfl,
    show (pipeData m 0 c).arrAt 1 0 = entryAt m c main_v0 from rfl,
    show (pipeData m 0 c).arrAt 2 0 = entryAt m c main_v1 from rfl]
  refine (show iprop((((c.tc : Thread nD τ).loc main_v0) ↦{fullShare} entryAt m c main_v0)
      ∗ (((c.tc : Thread nD τ).loc main_v1) ↦{fullShare} entryAt m c main_v1)) ⊢ _ from ?_)
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-! ## After the region -/

/-- The two buffers the last reshape touches: the region's result array and the program's result. -/
abbrev tailSet : Finset (DevRef τ sig) := {Proc.devRef .tc main_v1, Proc.devRef .tc main_v2}

/-- The core's contents at the region's exit: the result array at `res`, every other buffer as the region
    found it. -/
def exitVal (c : Dev nD) (res : Buf (Elt F) ((c.tc : Thread nD τ).loc main_v1)) : Valuation τ sig (Elt F) :=
  Function.update (entry m c) (Proc.devRef .tc main_v1) res

/-- What a buffer holds when the program returns: the last reshape run from the exit contents. -/
def finalAt (c : Dev nD) (res : Buf (Elt F) ((c.tc : Thread nD τ).loc main_v1)) (b : Ref sig .tc) :
    Buf (Elt F) ((c.tc : Thread nD τ).loc b) :=
  StableHlo.after (List.flatten [hostOps1]) (exitVal m c res) (Proc.devRef .tc b)

theorem exitVal_res (c : Dev nD) (res : Buf (Elt F) ((c.tc : Thread nD τ).loc main_v1)) :
    exitVal m c res (Proc.devRef .tc main_v1) = res := Function.update_self _ _ _

theorem exitVal_other (c : Dev nD) (res : Buf (Elt F) ((c.tc : Thread nD τ).loc main_v1)) (b : Ref sig .tc) (h : b ≠ main_v1) :
    exitVal m c res (Proc.devRef .tc b) = entryAt m c b := Function.update_of_ne (StableHlo.devRef_ne_of_ne h) _ _

/-- The last reshape writes the program's result only. -/
theorem finalAt_kept (c : Dev nD) (res : Buf (Elt F) ((c.tc : Thread nD τ).loc main_v1)) (b : Ref sig .tc) (h : b ≠ main_v2) :
    finalAt m c res b = exitVal m c res (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.reshape_writes, Finset.mem_singleton]
    exact StableHlo.devRef_ne_of_ne h))

/-- The argument array is as launched when the program returns. -/
theorem finalAt_arg (c : Dev nD) (res : Buf (Elt F) ((c.tc : Thread nD τ).loc main_v1)) :
    finalAt m c res main_arg0 = m ((c : Thread nD τ).loc main_arg0) := by
  rw [finalAt_kept m c res main_arg0 (by decide), exitVal_other m c res main_arg0 (by decide)]
  exact entryAt_arg m c

/-- The program's result is the region's result array, reshaped. -/
theorem finalAt_result (c : Dev nD) (res : Buf (Elt F) ((c.tc : Thread nD τ).loc main_v1)) :
    finalAt m c res main_v2 = shapeCast S16x1024x48x48 res shapeCasts_S16x1024x2304_S16x1024x48x48 := by
  unfold finalAt
  simp only [hostOps1, List.flatten_cons, List.flatten_nil, List.append_nil, StableHlo.after_cons, StableHlo.after_nil]
  rw [StableHlo.reshape_result', exitVal_res]
  rfl

/-- The two buffers held at a valuation, one by one. -/
theorem held_tail (c : Dev nD) (Wv : Valuation τ sig (Elt F)) :
    (StableHlo.held (c.tc : Thread nD τ) tailSet Wv : sProp 𝕄)
      = iprop((((c.tc : Thread nD τ).loc main_v1) ↦{fullShare} Wv (Proc.devRef .tc main_v1))
          ∗ (((c.tc : Thread nD τ).loc main_v2) ↦{fullShare} Wv (Proc.devRef .tc main_v2))) := by
  classical
  unfold StableHlo.held
  rw [bigSep_eq_bigSepL_of_eq [Proc.devRef .tc main_v1, Proc.devRef .tc main_v2] (by decide) (by decide)]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  rw [StableHlo.reshape_bufs]

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp after_fresh) op hop

/-- The last reshape, run from the region's exit: holding the boundary, the arrays as the region left them
    and the two buffers that bypass the region as it found them, it runs to the return holding the arrays
    unchanged and the bypassing buffers at `finalAt`. -/
theorem tail_runs (c : Dev nD) (Q' : PUnit → sProp 𝕄) :
    iprop((iprop((pipeData m 0 c).arrays ((pipeData m 0 c).arrAt · cfg0.N)
              ∗ Pipeline.unscopedRest (Ix := Unit) (Name := ℕ) (U := UR sig nD τ) (Lvl := ℕ) spec0 c
                  (finalAt m c ((pipeData m 0 c).arrAt 2 cfg0.N))) -∗ Q' ⟨⟩)
        ∗ boundary (c.tc : Thread nD τ) ∗ (pipeData m 0 c).arrays ((pipeData m 0 c).arrAt · cfg0.N)
        ∗ Pipeline.unscopedRest (Ix := Unit) (Name := ℕ) (U := UR sig nD τ) (Lvl := ℕ) spec0 c (entryAt m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  have key := Pipeline.wp_seqs_then (Ix := Unit) (Name := ℕ) (U := UR sig nD τ) (Lvl := ℕ)
    (fun q => (cfgs q).toPCfg (Val := Elt F)) defs₀ Variants.none c tailSet [] [hostOps1] tail_sub tail_fresh
    (exitVal m c ((pipeData m 0 c).arrAt 2 cfg0.N)) (K := Q')
  rw [held_tail, held_tail, exitVal_res, exitVal_other m c _ main_v2 (by decide)] at key
  rw [arrays_chain, unscopedRest0_eq, unscopedRest0_eq]
  rw [finalAt_kept m c _ main_arg0 (by decide), exitVal_other m c _ main_arg0 (by decide)]
  iintro ⟨Hk, Hb, ⟨A0, A1, A2⟩, ⟨R0, R2⟩⟩
  iapply key $$ [Hb A2 R2]
  · isplitl [Hb]; · iexact Hb
    isplitl [A2]; · iexact A2
    iexact R2
  iintro ⟨Hb, A2, R2⟩
  rw [Pipeline.chain_nil, wp_pure]
  imodintro
  iapply Hk
  isplitl [A0 A1 A2]
  · isplitl [A0]; · iexact A0
    isplitl [A1]; · iexact A1
    iexact A2
  isplitl [R0]; · iexact R0
  iexact R2

/-! ## The run -/

/-- What the program's run ends with on core `c`: every array of the pipeline at what the write-backs
    made of it, the argument array as launched, the program's result at the region's result reshaped. -/
def RunPost (r : PUnit × MemSt nD τ sig (Elt F)) : Prop :=
  ∀ c : Dev nD, (∀ w, r.2.mem ((spec0 w).arr.view.loc (c.tc : Thread nD τ)) = (pipeData m 0 c).arrAt w cfg0.N)
    ∧ r.2.mem ((c.tc : Thread nD τ).loc main_arg0) = m ((c.tc : Thread nD τ).loc main_arg0)
    ∧ r.2.mem ((c.tc : Thread nD τ).loc main_v2)
        = shapeCast S16x1024x48x48 ((pipeData m 0 c).arrAt 2 cfg0.N) shapeCasts_S16x1024x2304_S16x1024x48x48

set_option backward.isDefEq.respectTransparency.types false in
/-- From any memory with zero counters, every weakly fair execution of the program terminates, without a
    fault, in a state of `RunPost`. -/
theorem run_main : θ_run defs (onTc (τ := τ) (main (F := F))) ⟨m, fun _ => 0, ρ⟩ (RunPost m) := by
  classical
  exact Pipeline.θ_run_region_pf_tail (pcfgs (F := F)) (fun q => (cfgs q).toPCfg_adm) (pipeData m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := entryAt m) (hmain := main_around m Variants.none)
    (hsplit := split_shared m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (entryAt m c))
    (Z' := fun c => Pipeline.unscopedRest (Ix := Unit) (Name := ℕ) (U := UR sig nD τ) (Lvl := ℕ) spec0 c
      (finalAt m c ((pipeData m 0 c).arrAt 2 cfg0.N)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_runs m)
    (QY := fun c s => ∀ b ∈ Pipeline.restRefs sig spec0, s.mem ((c.tc : Thread nD τ).loc b) = finalAt m c ((pipeData m 0 c).arrAt 2 cfg0.N) b)
    (hY := fun c s' => by
      iintro ⟨-, HU, HSI⟩
      unfold Pipeline.unscopedRest
      imodintro
      iapply (pointsTo_read_all (Pipeline.restRefs sig spec0) (fun b => (c.tc : Thread nD τ).loc b) (finalAt m c ((pipeData m 0 c).arrAt 2 cfg0.N)) s')
      isplitl [HU] <;> iassumption)
    (hQ := fun s h c => ⟨(h c).1,
      ((h c).2.2 main_arg0 (Pipeline.mem_restRefs_of main_arg0 (by decide) (by decide))).trans (finalAt_arg m c _),
      ((h c).2.2 main_v2 (Pipeline.mem_restRefs_of main_v2 (by decide) (by decide))).trans (finalAt_result m c _)⟩)

/-- The program runs to its end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2.1) (run_main m ρ)

end Cert.Kernel.Region

end
-- ==== Proof.IdealRegion.lean ====
/-
  The pipelined region of the channel-attention kernel, point by point.

  The region's grid is 16 x 4: point (b, ci) reads rows ci*256 .. ci*256+255 of batch b of the flattened
  input (the query tile), ALL 1024 rows of batch b of the same array (the keys and values), and writes
  rows ci*256 .. ci*256+255 of batch b of the result. Both input windows are blocks of ONE array, so the
  core holds that array in two halves of its share, one per window; the output window's array is held
  whole. At every point each input's buffer holds its block of the array as the region found it (the
  key/value block is fetched only when the batch changes, and is found in place otherwise), and the body
  leaves in the output buffer one function of the two input blocks: the body's single covering store.
-/
import proofs.«120363_j1735166787958_1_alg».proof.Proof.Gen.KernelIdeal.Launch
import proofs.«120363_j1735166787958_1_alg».proof.Proof.Gen.KernelIdeal.Skeleton
import proofs.«120363_j1735166787958_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The core's buffer contents when the region is entered: the launch contents after the one reshape that
    flattens the two spatial axes. -/
abbrev entry (c : Dev nD) : Valuation τ sig (Elt F) := StableHlo.after (List.flatten [hostOps0]) (fun b => m (c, b))
/-- The same at a TensorCore reference. -/
abbrev entryAt (c : Dev nD) (b : Ref sig .tc) : Buf (Elt F) ((c : Thread nD τ).loc b) := entry m c (Proc.devRef .tc b)

theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the flattening reshape, the region, and the reshape back: it reduces to the region continued
    by the last reshape, entered at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The flattening reshape does not write the argument array: the region finds it as launched. -/
theorem entryAt_arg (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The query window's buffer holds its block at every point, for any proof data over the entry contents
    whose body leaves the block in place. -/
theorem query_found {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key/value window's buffer holds its block at every point, fetched there (the batch changed) or
    not (the block index did not move). -/
theorem keys_found {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output buffer -/

abbrev wholeQ : Rect S1x256x2304 := Rect.unit (s := S1x256x2304) ![0, 0, 0] S1x256x2304.size inb_S1x256x2304_S1x256x2304_0_0_0
abbrev wholeK : Rect S1x1024x2304 := Rect.unit (s := S1x1024x2304) ![0, 0, 0] S1x1024x2304.size inb_S1x1024x2304_S1x1024x2304_0_0_0

/-- The output buffer after the body, from the two input blocks: its one store, of the whole buffer. -/
def bodyOut (xq : Vec F S1x256x2304 .f32) (xkv : Vec F S1x1024x2304 .f32) : Vec F S1x256x2304 .f32 :=
  View.canon [⟨wholeQ, k0_pay1 (View.ld xq wholeQ) (View.ld xkv wholeK)⟩]

/-- The one store covers the buffer. -/
theorem store_covers (p0 : Vec F S1x256x2304 .f32) (y : S1x256x2304.Idx) :
    ∃ pc ∈ ([⟨wholeQ, p0⟩] : List (View.Piece (Elt F) S1x256x2304 .f32)), y ∈ pc.1.set :=
  View.cover_of_tiled [⟨wholeQ, p0⟩] S1x256x2304.size (by rfl) y

/-! ## The body's triple -/

set_option maxHeartbeats 1000000 in
/-- The body on whole staging buffers, the inputs' at contents `xq`, `xkv` and the output's at anything:
    it runs to its end, the inputs' as they were and the output's at `bodyOut xq xkv`. -/
theorem body_runs (c : Dev nD) (E : Set ℕ) (i : grid0.Coords)
    (arg2 : Memref sig .tc .vmem S1x256x2304 .f32) (harg2 : arg2.IsWhole)
    (arg3 : Memref sig .tc .vmem S1x1024x2304 .f32) (harg3 : arg3.IsWhole)
    (arg4 : Memref sig .tc .vmem S1x256x2304 .f32) (harg4 : arg4.IsWhole)
    (xq : Vec F S1x256x2304 .f32) (xkv : Vec F S1x1024x2304 .f32) (K : PUnit → sProp 𝕄) :
    iprop(owns (c : Thread nD τ) arg2 fullShare xq ∗ owns (c : Thread nD τ) arg3 fullShare xkv ∗ (∃ d, owns (c : Thread nD τ) arg4 fullShare d)
        ∗ (iprop(owns (c : Thread nD τ) arg2 fullShare xq ∗ owns (c : Thread nD τ) arg3 fullShare xkv
            ∗ owns (c : Thread nD τ) arg4 fullShare (bodyOut xq xkv)) -∗ K ⟨⟩))
      ⊢ wp frame (wpE (defs₀ (F := F)) Variants.none c none) E (cc0__sparse_attn_kernel i arg2 harg2 arg3 harg3 arg4 harg4) K := by
  simp only [cc0__sparse_attn_kernel_eq_skeleton]; unfold cc0__sparse_attn_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- The proof data on core `c`: the arrays as the region finds them; after the body at point `t` each
    input's buffer at its block and the output's at `bodyOut` of the two blocks; the invariant the scoped
    rest and the generator register, untouched; nothing owed; the shared input array held in two halves,
    one per window that reads it. -/
def pipeData (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => bodyOut (blockAt m c 0 t) (blockAt m c 1 t)
  Φ _ := Pipeline.ΦA spec0 c
  q w := match w with
    | ⟨0, _⟩ => fullShare.left
    | ⟨1, _⟩ => fullShare.right
    | ⟨2, _⟩ => fullShare
  owed _ := 0

theorem entry_arrays (c : Dev nD) (w : Fin cfg0.W) : (pipeData m 0 c).A w = entryAt m c (Pipeline.arrRef spec0 w) := by
  dsimp only [pipeData]

theorem after_query (c : Dev nD) (t : Fin cfg0.N) : (pipeData m 0 c).after 0 t = blockAt m c 0 t := by dsimp only [pipeData]
theorem after_keys (c : Dev nD) (t : Fin cfg0.N) : (pipeData m 0 c).after 1 t = blockAt m c 1 t := by dsimp only [pipeData]
theorem after_out (c : Dev nD) (t : Fin cfg0.N) :
    (pipeData m 0 c).after 2 t = bodyOut (blockAt m c 0 t) (blockAt m c 1 t) := by dsimp only [pipeData]

theorem before_query (c : Dev nD) (t : Fin cfg0.N) (d) : (pipeData m 0 c).before 0 t d = blockAt m c 0 t :=
  query_found m (pipeData m 0 c) (entry_arrays m c 0) (after_query m c) t d
theorem before_keys (c : Dev nD) (t : Fin cfg0.N) (d) : (pipeData m 0 c).before 1 t d = blockAt m c 1 t :=
  keys_found m (pipeData m 0 c) (entry_arrays m c 1) (after_keys m c) t d

/-! ## The body obligation -/

/-- What the body is called with at point `t`, the windows one by one, -/
def bodyPre (c : Dev nD) (t : Fin cfg0.N) : sProp 𝕄 :=
  iprop((pipeData m 0 c).Φ t.castSucc ∗ (pipeData m 0 c).owesAt () t.castSucc
    ∗ (∃ d, owns (c : Thread nD τ) (st0_0 t) fullShare ((pipeData m 0 c).before 0 t d))
    ∗ (∃ d, owns (c : Thread nD τ) (st0_1 t) fullShare ((pipeData m 0 c).before 1 t d))
    ∗ (∃ d, owns (c : Thread nD τ) (st0_2 t) fullShare ((pipeData m 0 c).before 2 t d)))

/-- and what it returns. -/
def bodyPost (c : Dev nD) (t : Fin cfg0.N) : sProp 𝕄 :=
  iprop((pipeData m 0 c).Φ t.succ ∗ (pipeData m 0 c).owesAt () t.succ
    ∗ owns (c : Thread nD τ) (st0_0 t) fullShare ((pipeData m 0 c).after 0 t)
    ∗ owns (c : Thread nD τ) (st0_1 t) fullShare ((pipeData m 0 c).after 1 t)
    ∗ owns (c : Thread nD τ) (st0_2 t) fullShare ((pipeData m 0 c).after 2 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_keys]
  rw [show (pipeData m 0 c).Φ t.succ = (pipeData m 0 c).Φ t.castSucc from rfl,
    show (pipeData m 0 c).owesAt () t.succ = (pipeData m 0 c).owesAt () t.castSucc from rfl,
    after_query, after_keys, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (pipeData (F := F) m 0 c) (defs₀ (F := F)) Variants.none () Set.univ := fun t => by
  rw [bigSep_W0, bigSep_W0]
  exact body_at m c t

end Cert.KernelIdeal.Region

end
-- ==== Proof.IdealRun.lean ====
/-
  The run of the channel-attention kernel's program: the flattening reshape, the pipelined region, the
  reshape back.

  The region is entered holding the flattened input whole; it is split into two halves of its share, one
  for the query window and one for the key/value window, and the result array is held whole. After the
  last point the result array holds, block by block, what the body left at each point, and the last
  reshape reads it into the program's result; the argument array is touched by nobody.
-/
import proofs.«120363_j1735166787958_1_alg».proof.Proof.IdealRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the core holds -/

/-- The pipeline's arrays at contents `G`, one by one: the flattened input twice, at the two halves of
    its share, and the result array whole. -/
theorem arrays_chain (c : Dev nD) (G : (w : Fin cfg0.W) → Buf (Elt F) ((cfg0.win w).arr.view.loc (c.tc : Thread nD τ))) :
    ((pipeData m 0 c).arrays G : sProp 𝕄)
      = iprop((((c.tc : Thread nD τ).loc main_v0) ↦{fullShare.left} G 0) ∗ (((c.tc : Thread nD τ).loc main_v0) ↦{fullShare.right} G 1)
          ∗ (((c.tc : Thread nD τ).loc main_v1) ↦{fullShare} G 2)) := by
  have h : ((pipeData m 0 c).arrays G : sProp 𝕄)
      = bigSep Finset.univ fun w => (((c.tc : Thread nD τ).loc (Pipeline.arrRef spec0 w)) ↦{(pipeData m 0 c).share w} G w : sProp 𝕄) := by
    unfold Pipeline.Dat.arrays
    exact bigSep_congr fun w _ => by rw [(arr_whole0 w).set_eq_univ]
  rw [h, bigSep_W0]
  rfl

/-- Entering the region: the flattened input, held whole, is split between the two windows that read it. -/
theorem split_shared (c : Dev nD) :
    (Pipeline.arrBufs (Ix := Unit) (Name := ℕ) (U := UR sig nD τ) (Lvl := ℕ) spec0 c (entryAt m c) : sProp 𝕄)
      ⊢ (pipeData m 0 c).arrays ((pipeData m 0 c).arrAt · 0) := by
  classical
  rw [arrays_chain]
  unfold Pipeline.arrBufs
  rw [bigSep_eq_bigSepL_of_eq [main_v0, main_v1] (by decide) (by decide)]
  simp only [bigSepL_cons_cons, bigSepL_singleton]
  rw [show (pipeData m 0 c).arrAt 0 0 = entryAt m c main_v0 from rfl,
    show (pipeData m 0 c).arrAt 1 0 = entryAt m c main_v0 from rfl,
    show (pipeData m 0 c).arrAt 2 0 = entryAt m c main_v1 from rfl]
  refine (show iprop((((c.tc : Thread nD τ).loc main_v0) ↦{fullShare} entryAt m c main_v0)
      ∗ (((c.tc : Thread nD τ).loc main_v1) ↦{fullShare} entryAt m c main_v1)) ⊢ _ from ?_)
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-! ## After the region -/

/-- The two buffers the last reshape touches: the region's result array and the program's result. -/
abbrev tailSet : Finset (DevRef τ sig) := {Proc.devRef .tc main_v1, Proc.devRef .tc main_v2}

/-- The core's contents at the region's exit: the result array at `res`, every other buffer as the region
    found it. -/
def exitVal (c : Dev nD) (res : Buf (Elt F) ((c.tc : Thread nD τ).loc main_v1)) : Valuation τ sig (Elt F) :=
  Function.update (entry m c) (Proc.devRef .tc main_v1) res

/-- What a buffer holds when the program returns: the last reshape run from the exit contents. -/
def finalAt (c : Dev nD) (res : Buf (Elt F) ((c.tc : Thread nD τ).loc main_v1)) (b : Ref sig .tc) :
    Buf (Elt F) ((c.tc : Thread nD τ).loc b) :=
  StableHlo.after (List.flatten [hostOps1]) (exitVal m c res) (Proc.devRef .tc b)

theorem exitVal_res (c : Dev nD) (res : Buf (Elt F) ((c.tc : Thread nD τ).loc main_v1)) :
    exitVal m c res (Proc.devRef .tc main_v1) = res := Function.update_self _ _ _

theorem exitVal_other (c : Dev nD) (res : Buf (Elt F) ((c.tc : Thread nD τ).loc main_v1)) (b : Ref sig .tc) (h : b ≠ main_v1) :
    exitVal m c res (Proc.devRef .tc b) = entryAt m c b := Function.update_of_ne (StableHlo.devRef_ne_of_ne h) _ _

/-- The last reshape writes the program's result only. -/
theorem finalAt_kept (c : Dev nD) (res : Buf (Elt F) ((c.tc : Thread nD τ).loc main_v1)) (b : Ref sig .tc) (h : b ≠ main_v2) :
    finalAt m c res b = exitVal m c res (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.reshape_writes, Finset.mem_singleton]
    exact StableHlo.devRef_ne_of_ne h))

/-- The argument array is as launched when the program returns. -/
theorem finalAt_arg (c : Dev nD) (res : Buf (Elt F) ((c.tc : Thread nD τ).loc main_v1)) :
    finalAt m c res main_arg0 = m ((c : Thread nD τ).loc main_arg0) := by
  rw [finalAt_kept m c res main_arg0 (by decide), exitVal_other m c res main_arg0 (by decide)]
  exact entryAt_arg m c

/-- The program's result is the region's result array, reshaped. -/
theorem finalAt_result (c : Dev nD) (res : Buf (Elt F) ((c.tc : Thread nD τ).loc main_v1)) :
    finalAt m c res main_v2 = shapeCast S16x1024x48x48 res shapeCasts_S16x1024x2304_S16x1024x48x48 := by
  unfold finalAt
  simp only [hostOps1, List.flatten_cons, List.flatten_nil, List.append_nil, StableHlo.after_cons, StableHlo.after_nil]
  rw [StableHlo.reshape_result', exitVal_res]
  rfl

/-- The two buffers held at a valuation, one by one. -/
theorem held_tail (c : Dev nD) (Wv : Valuation τ sig (Elt F)) :
    (StableHlo.held (c.tc : Thread nD τ) tailSet Wv : sProp 𝕄)
      = iprop((((c.tc : Thread nD τ).loc main_v1) ↦{fullShare} Wv (Proc.devRef .tc main_v1))
          ∗ (((c.tc : Thread nD τ).loc main_v2) ↦{fullShare} Wv (Proc.devRef .tc main_v2))) := by
  classical
  unfold StableHlo.held
  rw [bigSep_eq_bigSepL_of_eq [Proc.devRef .tc main_v1, Proc.devRef .tc main_v2] (by decide) (by decide)]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  rw [StableHlo.reshape_bufs]

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp after_fresh) op hop

/-- The last reshape, run from the region's exit: holding the boundary, the arrays as the region left them
    and the two buffers that bypass the region as it found them, it runs to the return holding the arrays
    unchanged and the bypassing buffers at `finalAt`. -/
theorem tail_runs (c : Dev nD) (Q' : PUnit → sProp 𝕄) :
    iprop((iprop((pipeData m 0 c).arrays ((pipeData m 0 c).arrAt · cfg0.N)
              ∗ Pipeline.unscopedRest (Ix := Unit) (Name := ℕ) (U := UR sig nD τ) (Lvl := ℕ) spec0 c
                  (finalAt m c ((pipeData m 0 c).arrAt 2 cfg0.N))) -∗ Q' ⟨⟩)
        ∗ boundary (c.tc : Thread nD τ) ∗ (pipeData m 0 c).arrays ((pipeData m 0 c).arrAt · cfg0.N)
        ∗ Pipeline.unscopedRest (Ix := Unit) (Name := ℕ) (U := UR sig nD τ) (Lvl := ℕ) spec0 c (entryAt m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  have key := Pipeline.wp_seqs_then (Ix := Unit) (Name := ℕ) (U := UR sig nD τ) (Lvl := ℕ)
    (fun q => (cfgs q).toPCfg (Val := Elt F)) defs₀ Variants.none c tailSet [] [hostOps1] tail_sub tail_fresh
    (exitVal m c ((pipeData m 0 c).arrAt 2 cfg0.N)) (K := Q')
  rw [held_tail, held_tail, exitVal_res, exitVal_other m c _ main_v2 (by decide)] at key
  rw [arrays_chain, unscopedRest0_eq, unscopedRest0_eq]
  rw [finalAt_kept m c _ main_arg0 (by decide), exitVal_other m c _ main_arg0 (by decide)]
  iintro ⟨Hk, Hb, ⟨A0, A1, A2⟩, ⟨R0, R2⟩⟩
  iapply key $$ [Hb A2 R2]
  · isplitl [Hb]; · iexact Hb
    isplitl [A2]; · iexact A2
    iexact R2
  iintro ⟨Hb, A2, R2⟩
  rw [Pipeline.chain_nil, wp_pure]
  imodintro
  iapply Hk
  isplitl [A0 A1 A2]
  · isplitl [A0]; · iexact A0
    isplitl [A1]; · iexact A1
    iexact A2
  isplitl [R0]; · iexact R0
  iexact R2

/-! ## The run -/

/-- What the program's run ends with on core `c`: every array of the pipeline at what the write-backs
    made of it, the argument array as launched, the program's result at the region's result reshaped. -/
def RunPost (r : PUnit × MemSt nD τ sig (Elt F)) : Prop :=
  ∀ c : Dev nD, (∀ w, r.2.mem ((spec0 w).arr.view.loc (c.tc : Thread nD τ)) = (pipeData m 0 c).arrAt w cfg0.N)
    ∧ r.2.mem ((c.tc : Thread nD τ).loc main_arg0) = m ((c.tc : Thread nD τ).loc main_arg0)
    ∧ r.2.mem ((c.tc : Thread nD τ).loc main_v2)
        = shapeCast S16x1024x48x48 ((pipeData m 0 c).arrAt 2 cfg0.N) shapeCasts_S16x1024x2304_S16x1024x48x48

set_option backward.isDefEq.respectTransparency.types false in
/-- From any memory with zero counters, every weakly fair execution of the program terminates, without a
    fault, in a state of `RunPost`. -/
theorem run_main : θ_run defs (onTc (τ := τ) (main (F := F))) ⟨m, fun _ => 0, ρ⟩ (RunPost m) := by
  classical
  exact Pipeline.θ_run_region_pf_tail (pcfgs (F := F)) (fun q => (cfgs q).toPCfg_adm) (pipeData m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := entryAt m) (hmain := main_around m Variants.none)
    (hsplit := split_shared m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (entryAt m c))
    (Z' := fun c => Pipeline.unscopedRest (Ix := Unit) (Name := ℕ) (U := UR sig nD τ) (Lvl := ℕ) spec0 c
      (finalAt m c ((pipeData m 0 c).arrAt 2 cfg0.N)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_runs m)
    (QY := fun c s => ∀ b ∈ Pipeline.restRefs sig spec0, s.mem ((c.tc : Thread nD τ).loc b) = finalAt m c ((pipeData m 0 c).arrAt 2 cfg0.N) b)
    (hY := fun c s' => by
      iintro ⟨-, HU, HSI⟩
      unfold Pipeline.unscopedRest
      imodintro
      iapply (pointsTo_read_all (Pipeline.restRefs sig spec0) (fun b => (c.tc : Thread nD τ).loc b) (finalAt m c ((pipeData m 0 c).arrAt 2 cfg0.N)) s')
      isplitl [HU] <;> iassumption)
    (hQ := fun s h c => ⟨(h c).1,
      ((h c).2.2 main_arg0 (Pipeline.mem_restRefs_of main_arg0 (by decide) (by decide))).trans (finalAt_arg m c _),
      ((h c).2.2 main_v2 (Pipeline.mem_restRefs_of main_v2 (by decide) (by decide))).trans (finalAt_result m c _)⟩)

/-- The program runs to its end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2.1) (run_main m ρ)

end Cert.KernelIdeal.Region

end
-- ==== Proof.Attn.lean ====
/-
  Channel self-attention over the flattened input, index by index, on the extended reals.

  For a batch b and two channels c, d the ENERGY is the inner product of rows c and d of batch b over the
  2304 spatial positions. A row of scores s (one score per channel d) is turned into softmax weights: each
  score less the row's maximum, exponentiated, divided by the row's sum of those exponentials. The
  kernel's scores are the negated energies, 0 - e d; the reference's are the energies' distances below their
  maximum, (max e) - e d. Each program's result at (b, c, n) is the weighted sum over d of row d of batch b
  at position n; the kernel adds the input's own entry inside its body, the reference after reshaping.

  The two rows of scores differ by the constant max e, and softmax weights do not change when a constant is
  added to every score, PROVIDED the scores are real numbers: on the extended reals the step
  (s + k) - (m + k) = s - m fails at infinite values.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The flattened input: 16 batches, 1024 channels, 2304 positions. -/
abbrev Flat : Shape := ⟨3, ![16, 1024, 2304]⟩

/-- The value both programs start a maximum from (the pattern of minus infinity). -/
abbrev negInf : EReal := Ideal.ofBits .f32 0xFF800000#32

/-- The energy of channels `c` and `d` of batch `b`. -/
def energy (q : Flat.Idx → EReal) (b : Fin 16) (c d : Fin 1024) : EReal :=
  ∑ n : Fin 2304, q (ix3 b c n) * q (ix3 b d n)

/-- A row's maximum as both programs take it before subtracting: the fold from minus infinity, then once
    more against minus infinity. -/
def rowMax (s : Fin 1024 → EReal) : EReal := max negInf (Finset.univ.fold max negInf s)

/-- A row of scores less its maximum. -/
def shifted (s : Fin 1024 → EReal) (d : Fin 1024) : EReal := s d - rowMax s

/-- The softmax weight of score `d` in the row `s`. -/
def weight (s : Fin 1024 → EReal) (d : Fin 1024) : EReal :=
  Ideal.div (Ideal.exp (shifted s d)) (∑ d' : Fin 1024, Ideal.exp (shifted s d'))

/-- The kernel's scores for row `c` of batch `b`: the negated energies. -/
def negScores (q : Flat.Idx → EReal) (b : Fin 16) (c : Fin 1024) : Fin 1024 → EReal :=
  fun d => 0 - energy q b c d

/-- The reference's scores: how far each energy lies below the row's largest. -/
def gapScores (q : Flat.Idx → EReal) (b : Fin 16) (c : Fin 1024) : Fin 1024 → EReal :=
  fun d => Finset.univ.fold max negInf (energy q b c) - energy q b c d

/-- The weighted sum of the rows of batch `b` at position `n`. -/
def attend (s : Fin 1024 → EReal) (q : Flat.Idx → EReal) (b : Fin 16) (n : Fin 2304) : EReal :=
  ∑ d : Fin 1024, weight s d * q (ix3 b d n)

/-- What the kernel's region leaves in its result array. -/
def kernelOut (q : Flat.Idx → EReal) : Flat.Idx → EReal :=
  fun i => attend (negScores q (i 0) (i 1)) q (i 0) (i 2) + q i

/-- What the reference's second product holds, before the residual is added. -/
def referenceOut (q : Flat.Idx → EReal) : Flat.Idx → EReal :=
  fun i => attend (gapScores q (i 0) (i 1)) q (i 0) (i 2)

/-- The weights depend on the scores only through the scores less their maximum. -/
theorem weight_congr {s s' : Fin 1024 → EReal} (h : shifted s = shifted s') : weight s = weight s' := by
  funext d
  unfold weight
  rw [h]

end Cert.Attn

end
-- ==== Proof.LibUnitAxis.lean ====
/-
  Reading three layout operations at an index given by coordinates, at any element type and any extents.

  A matrix of A rows and B columns carried with a leading axis of extent one, [1, A, B], and the same matrix
  without it, [A, B], hold the same entries: entry (0, r, n) of the one is entry (r, n) of the other, because
  both sit at row-major position r * B + n. A vector of A per-row values, made a column [A, 1] and spread
  along a row of B > 1 entries, holds at (r, d) the value of row r.
-/
import Idealize.ShloMosaic.Lib.Pipeline.Value
import Idealize.ShloMosaic.Lib.ValueIdx

noncomputable section

namespace Cert.Lib.UnitAxis

open Idealize.ShloMosaic Idealize.ShloMosaic.ValueIdx

/-- Dropping the leading unit axis of a block of `A` rows: entry (r, n) is entry (0, r, n). -/
theorem dropUnit_apply {α : Type} {A B : Nat} (x : (⟨3, ![1, A, B]⟩ : Shape).Idx → α)
    (h : (⟨3, ![1, A, B]⟩ : Shape).ShapeCasts ⟨2, ![A, B]⟩) (r : Fin A) (n : Fin B) :
    shapeCast ⟨2, ![A, B]⟩ x h (ix2 r n) = x (ix3 0 r n) :=
  shapeCast_apply x h (ix2 r n) (ix3 0 r n) (by
    rw [Shape.rowMajor_val_three, Shape.rowMajor_val_two]
    show ((0 : Fin 1).val * A + r.val) * B + n.val = r.val * B + n.val
    simp)

/-- Putting the leading unit axis back: entry (0, r, n) is entry (r, n). -/
theorem addUnit_apply {α : Type} {A B : Nat} (y : (⟨2, ![A, B]⟩ : Shape).Idx → α)
    (h : (⟨2, ![A, B]⟩ : Shape).ShapeCasts ⟨3, ![1, A, B]⟩) (r : Fin A) (n : Fin B) :
    shapeCast ⟨3, ![1, A, B]⟩ y h (ix3 0 r n) = y (ix2 r n) :=
  shapeCast_apply y h (ix3 0 r n) (ix2 r n) (by
    rw [Shape.rowMajor_val_three, Shape.rowMajor_val_two]
    show r.val * B + n.val = ((0 : Fin 1).val * A + r.val) * B + n.val
    simp)

/-- A column of per-row values spread along the row: entry (r, d) is the value of row r. -/
theorem spreadRow_apply {α : Type} {A B : Nat} (w : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (hB : B ≠ 1) (r : Fin A) (d : Fin B) :
    broadcastTo ⟨2, ![A, B]⟩ (shapeCast ⟨2, ![A, 1]⟩ w h1) h2 (ix2 r d) = w (ix1 r) := by
  refine (broadcastTo_apply _ h2 (ix2 r d) (ix2 r (0 : Fin 1)) ?_).trans ?_
  · intro a
    match a with
    | ⟨0, _⟩ =>
      by_cases hA : A = 1
      · subst hA
        show r.val = if (1 : Nat) = 1 then 0 else _
        rw [if_pos rfl]; have := r.isLt; omega
      · show r.val = if A = 1 then 0 else r.val
        rw [if_neg hA]
    | ⟨1, _⟩ =>
      show (0 : Fin 1).val = if (1 : Nat) = 1 then 0 else _
      rw [if_pos rfl]; rfl
  · exact shapeCast_apply w h1 (ix2 r (0 : Fin 1)) (ix1 r) (by
      rw [Shape.rowMajor_val_two, Shape.rowMajor_val_one]
      show r.val = r.val * 1 + (0 : Fin 1).val
      simp)

end Cert.Lib.UnitAxis

end
-- ==== Proof.IdealPayload.lean ====
/-
  The body's arithmetic at an index.

  The body computes, from a query block xq of 256 rows and the key/value block xkv of 1024 rows (2304
  positions each), the energies of every query row against every key row as one matrix product, negates
  them, turns each row of 1024 scores into softmax weights (maximum, difference, exponential, row sum,
  quotient), multiplies the weights by the value rows as a second matrix product, and adds the query row.
  Read at row r and position n this is the weighted sum over the 1024 value rows at n, with the weights of
  row r's negated energies, plus the query entry. Changes of float format are the identity on the extended
  reals; a matrix product into a zero accumulator is the plain sum of products.
-/
import proofs.«120363_j1735166787958_1_alg».proof.Proof.Gen.KernelIdeal.Skeleton
import proofs.«120363_j1735166787958_1_alg».proof.Proof.Attn
import proofs.«120363_j1735166787958_1_alg».proof.Proof.LibUnitAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Lib.UnitAxis

/-! ## The row reductions at an index -/

/-- The maximum over a row of 1024 scores, started from minus infinity, as a fold over the row. -/
theorem rowMaxRed_apply (v : FVec Ideal S256x1024 .f32) (h : S256x1024.Reduces [1] S256) (hφ : FKind.Formats .f32)
    (hacc : (0xFF800000#32 : BitVec (FTy.bits .f32)) = FKind.maximumf.neutral .f32 hφ) (r : Fin 256) :
    multiReduction .maximumf [1] S256 v 0xFF800000#32 h hφ hacc (ix1 r)
      = (Finset.univ : Finset (Fin 1024)).fold max Attn.negInf (fun d => v (ix2 r d)) := by
  refine (Ideal.multiReduction_maximumf_single v _ h hφ hacc (ix1 r)).trans ?_
  show (Finset.univ : Finset (Fin 1024)).fold max (Ideal.ofBits .f32 0xFF800000#32) (fun d => v (h.lift (ix1 r) d)) = _
  refine congrArg (fun g => (Finset.univ : Finset (Fin 1024)).fold max Attn.negInf g) (funext fun d => congrArg v (funext fun a => ?_))
  match a with
  | ⟨0, _⟩ => rfl
  | ⟨1, _⟩ => rfl

/-- The sum over a row of 1024 entries. -/
theorem rowSumRed_apply (v : FVec Ideal S256x1024 .f32) (h : S256x1024.Reduces [1] S256) (hφ : FKind.Formats .f32)
    (hacc : (0x00000000#32 : BitVec (FTy.bits .f32)) = FKind.add.neutral .f32 hφ) (r : Fin 256) :
    multiReduction .add [1] S256 v 0x00000000#32 h hφ hacc (ix1 r) = ∑ d : Fin 1024, v (ix2 r d) := by
  refine (Ideal.multiReduction_add_single v _ h hφ hacc (ix1 r)).trans ?_
  show ∑ d : Fin 1024, v (h.lift (ix1 r) d) = _
  refine Finset.sum_congr rfl fun d _ => congrArg v (funext fun a => ?_)
  match a with
  | ⟨0, _⟩ => rfl
  | ⟨1, _⟩ => rfl

/-! ## The two matrix products at an index -/

local notation "dotE" => dot_S256x2304_S1024x2304_S256x1024_1_1_0_0_n_n
local notation "dotO" => dot_S256x1024_S1024x2304_S256x2304_1_0_0_1_n_n

theorem dotE_lhs0 (j : S256x1024.Idx) (q : dot_S256x2304_S1024x2304_S256x1024_1_1_0_0_n_n.contr.Idx) :
    (dot_S256x2304_S1024x2304_S256x1024_1_1_0_0_n_n.lhsIdx j q 0).val = (j 0).val := by
  unfold DotDims.lhsIdx
  rw [dif_neg (show ¬(0 : Fin S256x2304.rank) ∈ dot_S256x2304_S1024x2304_S256x1024_1_1_0_0_n_n.lhsBatch by decide),
    dif_pos (show (0 : Fin S256x2304.rank) ∈ dot_S256x2304_S1024x2304_S256x1024_1_1_0_0_n_n.lhsNonContracting by decide)]
  rfl
theorem dotE_rhs0 (j : S256x1024.Idx) (q : dot_S256x2304_S1024x2304_S256x1024_1_1_0_0_n_n.contr.Idx) :
    (dot_S256x2304_S1024x2304_S256x1024_1_1_0_0_n_n.rhsIdx j q 0).val = (j 1).val := by
  unfold DotDims.rhsIdx
  rw [dif_neg (show ¬(0 : Fin S1024x2304.rank) ∈ dot_S256x2304_S1024x2304_S256x1024_1_1_0_0_n_n.rhsBatch by decide),
    dif_pos (show (0 : Fin S1024x2304.rank) ∈ dot_S256x2304_S1024x2304_S256x1024_1_1_0_0_n_n.rhsNonContracting by decide)]
  rfl
theorem dotO_lhs0 (j : S256x2304.Idx) (q : dot_S256x1024_S1024x2304_S256x2304_1_0_0_1_n_n.contr.Idx) :
    (dot_S256x1024_S1024x2304_S256x2304_1_0_0_1_n_n.lhsIdx j q 0).val = (j 0).val := by
  unfold DotDims.lhsIdx
  rw [dif_neg (show ¬(0 : Fin S256x1024.rank) ∈ dot_S256x1024_S1024x2304_S256x2304_1_0_0_1_n_n.lhsBatch by decide),
    dif_pos (show (0 : Fin S256x1024.rank) ∈ dot_S256x1024_S1024x2304_S256x2304_1_0_0_1_n_n.lhsNonContracting by decide)]
  rfl
theorem dotO_rhs1 (j : S256x2304.Idx) (q : dot_S256x1024_S1024x2304_S256x2304_1_0_0_1_n_n.contr.Idx) :
    (dot_S256x1024_S1024x2304_S256x2304_1_0_0_1_n_n.rhsIdx j q 1).val = (j 1).val := by
  unfold DotDims.rhsIdx
  rw [dif_neg (show ¬(1 : Fin S1024x2304.rank) ∈ dot_S256x1024_S1024x2304_S256x2304_1_0_0_1_n_n.rhsBatch by decide),
    dif_pos (show (1 : Fin S1024x2304.rank) ∈ dot_S256x1024_S1024x2304_S256x2304_1_0_0_1_n_n.rhsNonContracting by decide)]
  rfl

/-- Query rows against key rows, both contracted over the 2304 positions: entry (r, d) is the inner product
    of query row r and key row d. -/
theorem energyMM_apply (a : FVec Ideal S256x2304 .bf16) (b : FVec Ideal S1024x2304 .bf16) (r : Fin 256) (d : Fin 1024) :
    matmul dot_S256x2304_S1024x2304_S256x1024_1_1_0_0_n_n none a b (constant S256x1024 .f32 0x00000000#32) (ix2 r d)
      = ∑ n : Fin 2304, a (ix2 r n) * b (ix2 d n) := by
  refine (Ideal.matmul_constant_zero_apply dot_S256x2304_S1024x2304_S256x1024_1_1_0_0_n_n none a b (ix2 r d)).trans ?_
  rw [← Equiv.sum_comp (contrEquiv1 dot_S256x2304_S1024x2304_S256x1024_1_1_0_0_n_n 2304 rfl rfl).symm]
  refine Finset.sum_congr rfl fun k _ => ?_
  have hk := contrEquiv1_symm_val dot_S256x2304_S1024x2304_S256x1024_1_1_0_0_n_n 2304 rfl rfl k
  have el : dot_S256x2304_S1024x2304_S256x1024_1_1_0_0_n_n.lhsIdx (ix2 r d) ((contrEquiv1 dot_S256x2304_S1024x2304_S256x1024_1_1_0_0_n_n 2304 rfl rfl).symm k) = ix2 r k :=
    funext fun x => Fin.ext (by
      match x with
      | ⟨0, _⟩ => exact dotE_lhs0 _ _
      | ⟨1, _⟩ => exact (dot_S256x2304_S1024x2304_S256x1024_1_1_0_0_n_n.lhsIdx_val_of_single rfl _ _).trans hk)
  have er : dot_S256x2304_S1024x2304_S256x1024_1_1_0_0_n_n.rhsIdx (ix2 r d) ((contrEquiv1 dot_S256x2304_S1024x2304_S256x1024_1_1_0_0_n_n 2304 rfl rfl).symm k) = ix2 d k :=
    funext fun x => Fin.ext (by
      match x with
      | ⟨0, _⟩ => exact dotE_rhs0 _ _
      | ⟨1, _⟩ => exact (dot_S256x2304_S1024x2304_S256x1024_1_1_0_0_n_n.rhsIdx_val_of_single rfl _ _).trans hk)
  rw [el, er]

/-- Weights against value rows, contracted over the 1024 channels: entry (r, n) is the sum over d of
    weight (r, d) times value row d at n. -/
theorem outMM_apply (a : FVec Ideal S256x1024 .bf16) (b : FVec Ideal S1024x2304 .bf16) (r : Fin 256) (n : Fin 2304) :
    matmul dot_S256x1024_S1024x2304_S256x2304_1_0_0_1_n_n none a b (constant S256x2304 .f32 0x00000000#32) (ix2 r n)
      = ∑ d : Fin 1024, a (ix2 r d) * b (ix2 d n) := by
  refine (Ideal.matmul_constant_zero_apply dot_S256x1024_S1024x2304_S256x2304_1_0_0_1_n_n none a b (ix2 r n)).trans ?_
  rw [← Equiv.sum_comp (contrEquiv1 dot_S256x1024_S1024x2304_S256x2304_1_0_0_1_n_n 1024 rfl rfl).symm]
  refine Finset.sum_congr rfl fun k _ => ?_
  have hk := contrEquiv1_symm_val dot_S256x1024_S1024x2304_S256x2304_1_0_0_1_n_n 1024 rfl rfl k
  have el : dot_S256x1024_S1024x2304_S256x2304_1_0_0_1_n_n.lhsIdx (ix2 r n) ((contrEquiv1 dot_S256x1024_S1024x2304_S256x2304_1_0_0_1_n_n 1024 rfl rfl).symm k) = ix2 r k :=
    funext fun x => Fin.ext (by
      match x with
      | ⟨0, _⟩ => exact dotO_lhs0 _ _
      | ⟨1, _⟩ => exact (dot_S256x1024_S1024x2304_S256x2304_1_0_0_1_n_n.lhsIdx_val_of_single rfl _ _).trans hk)
  have er : dot_S256x1024_S1024x2304_S256x2304_1_0_0_1_n_n.rhsIdx (ix2 r n) ((contrEquiv1 dot_S256x1024_S1024x2304_S256x2304_1_0_0_1_n_n 1024 rfl rfl).symm k) = ix2 k n :=
    funext fun x => Fin.ext (by
      match x with
      | ⟨0, _⟩ => exact (dot_S256x1024_S1024x2304_S256x2304_1_0_0_1_n_n.rhsIdx_val_of_single rfl _ _).trans hk
      | ⟨1, _⟩ => exact dotO_rhs1 _ _)
  rw [el, er]

/-! ## The body's arithmetic, stage by stage -/

section Stages

variable (xq : Vec Ideal S1x256x2304 .f32) (xkv : Vec Ideal S1x1024x2304 .f32)

/-- The query block and the key/value block as matrices of rows. -/
def qRows : FVec Ideal S256x2304 .f32 := shapeCast S256x2304 xq shapeCasts_S1x256x2304_S256x2304
def kvRows : FVec Ideal S1024x2304 .f32 := shapeCast S1024x2304 xkv shapeCasts_S1x1024x2304_S1024x2304
/-- Every query row against every key row. -/
def energies : FVec Ideal S256x1024 .f32 :=
  matmul dot_S256x2304_S1024x2304_S256x1024_1_1_0_0_n_n none (truncf .bf16 (qRows xq) bitsLt_bf16_f32)
    (truncf .bf16 (kvRows xkv) bitsLt_bf16_f32) (constant S256x1024 .f32 0x00000000#32)
/-- The scores: the energies negated. -/
def scores : FVec Ideal S256x1024 .f32 := subf (broadcast S256x1024 (Scalar.ofBits .f32 0x00000000#32)) (energies xq xkv)
/-- Each row's largest score. -/
def rowTop : FVec Ideal S256 .f32 :=
  maximumf (broadcast S256 (Scalar.ofBits .f32 0xFF800000#32))
    (multiReduction .maximumf [1] S256 (scores xq xkv) 0xFF800000#32 reduces_S256x1024_S256 (.inl rfl) rfl)
/-- The exponentials of the scores less their row's largest. -/
def expo : FVec Ideal S256x1024 .f32 :=
  exp (subf (scores xq xkv) (broadcastTo S256x1024 (shapeCast S256x1 (rowTop xq xkv) shapeCasts_S256_S256x1) broadcasts_S256x1_S256x1024))
/-- Each row's sum of exponentials. -/
def rowSum : FVec Ideal S256 .f32 :=
  multiReduction .add [1] S256 (expo xq xkv) 0x00000000#32 reduces_S256x1024_S256 (.inl rfl) rfl
/-- The softmax weights. -/
def probs : FVec Ideal S256x1024 .f32 :=
  divf (expo xq xkv) (broadcastTo S256x1024 (shapeCast S256x1 (rowSum xq xkv) shapeCasts_S256_S256x1) broadcasts_S256x1_S256x1024)
/-- The weighted value rows plus the query rows. -/
def outRows : FVec Ideal S256x2304 .f32 :=
  addf (matmul dot_S256x1024_S1024x2304_S256x2304_1_0_0_1_n_n none (truncf .bf16 (probs xq xkv) bitsLt_bf16_f32)
    (truncf .bf16 (kvRows xkv) bitsLt_bf16_f32) (constant S256x2304 .f32 0x00000000#32)) (qRows xq)

/-- The body's one payload is these stages composed. -/
theorem pay_eq : k0_pay1 xq xkv = shapeCast S1x256x2304 (outRows xq xkv) shapeCasts_S256x2304_S1x256x2304 := rfl

/-- Row r's scores as a function of the key row: the negated inner products. -/
def rowScores (r : Fin 256) : Fin 1024 → EReal := fun d => 0 - ∑ n : Fin 2304, xq (ix3 0 r n) * xkv (ix3 0 d n)

theorem qRows_apply (r : Fin 256) (n : Fin 2304) : qRows xq (ix2 r n) = xq (ix3 0 r n) := dropUnit_apply xq _ r n
theorem kvRows_apply (d : Fin 1024) (n : Fin 2304) : kvRows xkv (ix2 d n) = xkv (ix3 0 d n) := dropUnit_apply xkv _ d n

theorem energies_apply (r : Fin 256) (d : Fin 1024) :
    energies xq xkv (ix2 r d) = ∑ n : Fin 2304, xq (ix3 0 r n) * xkv (ix3 0 d n) :=
  (energyMM_apply _ _ r d).trans (Finset.sum_congr rfl fun n _ => congrArg₂ (· * ·) (qRows_apply xq r n) (kvRows_apply xkv d n))

theorem scores_apply (r : Fin 256) (d : Fin 1024) : scores xq xkv (ix2 r d) = rowScores xq xkv r d := by
  show Ideal.ofBits .f32 0x00000000#32 - energies xq xkv (ix2 r d) = _
  rw [Ideal.ofBits_zero_f32, energies_apply]; rfl

theorem rowTop_apply (r : Fin 256) : rowTop xq xkv (ix1 r) = Attn.rowMax (rowScores xq xkv r) :=
  congrArg (max Attn.negInf) ((rowMaxRed_apply (scores xq xkv) _ _ _ r).trans
    (congrArg (fun g => (Finset.univ : Finset (Fin 1024)).fold max Attn.negInf g) (funext fun d => scores_apply xq xkv r d)))

theorem expo_apply (r : Fin 256) (d : Fin 1024) :
    expo xq xkv (ix2 r d) = Ideal.exp (Attn.shifted (rowScores xq xkv r) d) := by
  show Ideal.exp (scores xq xkv (ix2 r d)
    - broadcastTo S256x1024 (shapeCast S256x1 (rowTop xq xkv) shapeCasts_S256_S256x1) broadcasts_S256x1_S256x1024 (ix2 r d)) = _
  rw [scores_apply, spreadRow_apply (rowTop xq xkv) _ _ (by decide) r d, rowTop_apply]; rfl

theorem rowSum_apply (r : Fin 256) : rowSum xq xkv (ix1 r) = ∑ d : Fin 1024, Ideal.exp (Attn.shifted (rowScores xq xkv r) d) :=
  (rowSumRed_apply (expo xq xkv) _ _ _ r).trans (Finset.sum_congr rfl fun d _ => expo_apply xq xkv r d)

theorem probs_apply (r : Fin 256) (d : Fin 1024) : probs xq xkv (ix2 r d) = Attn.weight (rowScores xq xkv r) d := by
  show Ideal.div (expo xq xkv (ix2 r d))
    (broadcastTo S256x1024 (shapeCast S256x1 (rowSum xq xkv) shapeCasts_S256_S256x1) broadcasts_S256x1_S256x1024 (ix2 r d)) = _
  rw [expo_apply, spreadRow_apply (rowSum xq xkv) _ _ (by decide) r d, rowSum_apply]; rfl

theorem outRows_apply (r : Fin 256) (n : Fin 2304) :
    outRows xq xkv (ix2 r n) = (∑ d : Fin 1024, Attn.weight (rowScores xq xkv r) d * xkv (ix3 0 d n)) + xq (ix3 0 r n) := by
  show matmul dot_S256x1024_S1024x2304_S256x2304_1_0_0_1_n_n none (truncf .bf16 (probs xq xkv) bitsLt_bf16_f32)
    (truncf .bf16 (kvRows xkv) bitsLt_bf16_f32) (constant S256x2304 .f32 0x00000000#32) (ix2 r n) + qRows xq (ix2 r n) = _
  rw [qRows_apply]
  exact congrArg (· + xq (ix3 0 r n)) ((outMM_apply _ _ r n).trans
    (Finset.sum_congr rfl fun d _ => congrArg₂ (· * ·) (probs_apply xq xkv r d) (kvRows_apply xkv d n)))

/-- THE PAYLOAD AT AN INDEX: at row r and position n the body stores the weighted sum over the 1024 value
    rows at n, weighted by the softmax of row r's negated energies, plus the query entry. -/
theorem payload_apply (r : Fin 256) (n : Fin 2304) :
    k0_pay1 xq xkv (ix3 0 r n)
      = (∑ d : Fin 1024, Attn.weight (rowScores xq xkv r) d * xkv (ix3 0 d n)) + xq (ix3 0 r n) := by
  rw [pay_eq]
  exact (addUnit_apply _ _ r n).trans (outRows_apply xq xkv r n)

end Stages

end Cert.KernelIdeal.Payload

end
-- ==== Proof.IdealValue.lean ====
/-
  From blocks to the array: what the kernel's region leaves in its result array.

  Point t = (b, ci) of the grid reads rows ci*256 .. ci*256+255 of batch b as its query block and all 1024
  rows of batch b as its key/value block, and writes back rows ci*256 .. ci*256+255 of batch b of the
  result. So what it writes back is that block of ONE function of the flattened input, the channel
  self-attention plus the input itself; the 64 blocks tile the result array, hence the array ends holding
  that function.
-/
import proofs.«120363_j1735166787958_1_alg».proof.Proof.IdealRun
import proofs.«120363_j1735166787958_1_alg».proof.Proof.IdealPayload
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The body's payload on blocks of one array -/

/-- If the query block's row r is row `row r` of batch `b` of `q` and the key/value block's row d is row d of the
    same batch, the body's payload at (0, r, n) is the kernel's result function of `q` at (b, row r, n). -/
theorem pay_at (q : Attn.Flat.Idx → EReal) (xq : Vec Ideal S1x256x2304 .f32) (xkv : Vec Ideal S1x1024x2304 .f32)
    (b : Fin 16) (row : Fin 256 → Fin 1024)
    (hq : ∀ (r : Fin 256) (n : Fin 2304), xq (ix3 0 r n) = q (ix3 b (row r) n))
    (hkv : ∀ (d : Fin 1024) (n : Fin 2304), xkv (ix3 0 d n) = q (ix3 b d n))
    (r : Fin 256) (n : Fin 2304) :
    k0_pay1 xq xkv (ix3 0 r n) = Attn.kernelOut q (ix3 b (row r) n) := by
  have hs : Payload.rowScores xq xkv r = Attn.negScores q b (row r) := funext fun d => by
    unfold Payload.rowScores Attn.negScores Attn.energy
    exact congrArg (fun z => (0 : EReal) - z) (Finset.sum_congr rfl fun n' _ => congrArg₂ (· * ·) (hq r n') (hkv d n'))
  rw [Payload.payload_apply, hs, hq]
  show _ = Attn.attend (Attn.negScores q b (row r)) q b n + q (ix3 b (row r) n)
  unfold Attn.attend
  exact congrArg (· + q (ix3 b (row r) n)) (Finset.sum_congr rfl fun d _ => congrArg (fun z => Attn.weight (Attn.negScores q b (row r)) d * z) (hkv d n))

/-! ## The printed index maps over the grid -/

theorem zero3 : (![0, 0, 0] : Fin 3 → Nat) = fun _ => 0 := funext fun a => by fin_cases a <;> rfl

/-- The query window moves with the output window; the key/value window follows its batch only; the
    output's block indices stay in their ranges. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 15 ∧ win0_2.index t (1 : Fin 3) ≤ 3 :=
  (by decide +kernel : ∀ t : Fin grid0.N, _)

/-- Every (batch, row tile) is some point's output block. -/
theorem idx_onto : ∀ (b : Fin 16) (ci : Fin 4), ∃ t : Fin cfg0.N, win0_2.index t = ![b.val, ci.val, 0] :=
  (by decide +kernel : ∀ (b : Fin 16) (ci : Fin 4), ∃ t : Fin grid0.N, win0_2.index t = ![b.val, ci.val, 0])

/-- The batch point `t` works on, and the row of that batch its query row r is. -/
def batchOf (t : Fin cfg0.N) : Fin 16 := ⟨win0_2.index t (0 : Fin 3), by have := idx_facts t; omega⟩
def rowOf (t : Fin cfg0.N) (r : Fin 256) : Fin 1024 :=
  ⟨win0_2.index t (1 : Fin 3) * 256 + r.val, by have := idx_facts t; have := r.isLt; omega⟩

/-! ## The blocks read off the flattened input -/

/-- The query block at point t: row r is row `rowOf t r` of batch `batchOf t`. -/
theorem query_block (c : Dev nD) (t : Fin cfg0.N) (r : Fin 256) (n : Fin 2304) :
    blockAt m c 0 t (ix3 0 r n) = entryAt m c main_v0 (ix3 (batchOf t) (rowOf t r) n) := by
  show entryAt m c main_v0 (((cfg0.win 0).blk t).view.emb (ix3 0 r n)) = _
  refine congrArg (entryAt m c main_v0) (funext fun a => Fin.ext ?_)
  obtain ⟨e0, e1, e2, -⟩ := idx_facts t
  match a with
  | ⟨0, _⟩ => show win0_0.index t (0 : Fin 3) * 1 + 1 * (0 : Fin 1).val = win0_2.index t (0 : Fin 3); rw [e0]; simp
  | ⟨1, _⟩ => show win0_0.index t (1 : Fin 3) * 256 + 1 * r.val = win0_2.index t (1 : Fin 3) * 256 + r.val; rw [e1]; omega
  | ⟨2, _⟩ => show win0_0.index t (2 : Fin 3) * 2304 + 1 * n.val = n.val; rw [e2]; omega

/-- The key/value block at point t: row d is row d of batch `batchOf t`. -/
theorem keys_block (c : Dev nD) (t : Fin cfg0.N) (d : Fin 1024) (n : Fin 2304) :
    blockAt m c 1 t (ix3 0 d n) = entryAt m c main_v0 (ix3 (batchOf t) d n) := by
  show entryAt m c main_v0 (((cfg0.win 1).blk t).view.emb (ix3 0 d n)) = _
  refine congrArg (entryAt m c main_v0) (funext fun a => Fin.ext ?_)
  obtain ⟨-, -, -, e0, e1, e2, -⟩ := idx_facts t
  match a with
  | ⟨0, _⟩ => show win0_1.index t (0 : Fin 3) * 1 + 1 * (0 : Fin 1).val = win0_2.index t (0 : Fin 3); rw [e0]; simp
  | ⟨1, _⟩ => show win0_1.index t (1 : Fin 3) * 1024 + 1 * d.val = d.val; rw [e1]; omega
  | ⟨2, _⟩ => show win0_1.index t (2 : Fin 3) * 2304 + 1 * n.val = n.val; rw [e2]; omega

/-! ## What each point writes back, and the array -/

/-- WHAT POINT t WRITES BACK is block t of the kernel's result function of the flattened input. -/
theorem flushed_eq (c : Dev nD) (t : Fin cfg0.N) :
    (pipeData m 0 c).flushed 2 t = ((cfg0.win 2).blk t).view.read (Elt Ideal) (Attn.kernelOut (entryAt m c main_v0)) := by
  show (cfg0.win 2).cut (grid0.coords t) ((pipeData m 0 c).after 2 t) = _
  rw [after_out]
  unfold bodyOut
  rw [View.canon_unit_zero zero3]
  simp only [View.ld_unit_zero (S := S1x256x2304) zero3, View.ld_unit_zero (S := S1x1024x2304) zero3]
  funext j
  show k0_pay1 (blockAt m c 0 t) (blockAt m c 1 t) j = Attn.kernelOut (entryAt m c main_v0) (((cfg0.win 2).blk t).view.emb j)
  obtain ⟨r, n, rfl⟩ : ∃ (r : Fin 256) (n : Fin 2304), j = ix3 0 r n :=
    ⟨j 1, j 2, (eq_ix3 j).trans (congrArg (fun z => ix3 z (j 1) (j 2))
      (Fin.ext (by have h : (j 0).val < 1 := (j 0).isLt; show (j 0).val = 0; omega) : j 0 = (0 : Fin 1)))⟩
  refine (pay_at (entryAt m c main_v0) _ _ (batchOf t) (rowOf t) (query_block m c t) (keys_block m c t) r n).trans ?_
  refine congrArg (Attn.kernelOut (entryAt m c main_v0)) (funext fun a => Fin.ext ?_)
  obtain ⟨-, -, -, -, -, -, e2, -⟩ := idx_facts t
  match a with
  | ⟨0, _⟩ => show win0_2.index t (0 : Fin 3) = win0_2.index t (0 : Fin 3) * 1 + 1 * (0 : Fin 1).val; simp
  | ⟨1, _⟩ => show win0_2.index t (1 : Fin 3) * 256 + r.val = win0_2.index t (1 : Fin 3) * 256 + 1 * r.val; omega
  | ⟨2, _⟩ => show n.val = win0_2.index t (2 : Fin 3) * 2304 + 1 * n.val; rw [e2]; omega

/-- An index of the result array is in point t's block iff each coordinate is in the block's range. -/
theorem mem_blk (t : Fin cfg0.N) (i : S16x1024x2304.Idx) :
    i ∈ ((cfg0.win 2).blk t).view.set ↔ ∀ a : Fin 3, win0_2.index t a * S1x256x2304.size a ≤ (i a).val
      ∧ (i a).val < win0_2.index t a * S1x256x2304.size a + S1x256x2304.size a := by
  show i ∈ ((View.whole main_v1).slice (win0_2.rect t)).set ↔ _
  rw [View.set_slice_whole, Rect.mem_set_unit]
  exact Iff.rfl

/-- The 64 output blocks cover the result array. -/
theorem covered (i : S16x1024x2304.Idx) :
    ∃ t : Fin cfg0.N, (cfg0.win 2).flush t = true ∧ i ∈ ((cfg0.win 2).blk t).view.set := by
  have h0 : (i 0).val < 16 := (i 0).isLt
  have h1 : (i 1).val < 1024 := (i 1).isLt
  have h2 : (i 2).val < 2304 := (i 2).isLt
  obtain ⟨t, ht⟩ := idx_onto ⟨(i 0).val, h0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, (mem_blk t i).mpr fun a => ?_⟩
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2304 ≤ (i 2).val ∧ (i 2).val < win0_2.index t (2 : Fin 3) * 2304 + 2304; omega

/-- THE RESULT ARRAY after the region: the kernel's result function of the flattened input. -/
theorem result_array (c : Dev nD) : (pipeData m 0 c).arrAt 2 cfg0.N = Attn.kernelOut (entryAt m c main_v0) :=
  (pipeData m 0 c).arrAt_eq_of_cover 2 (Attn.kernelOut (entryAt m c main_v0)) (fun t _ => flushed_eq m c t) covered

/-- The flattened input the region finds is the argument array, reshaped. -/
theorem flat_input (c : Dev nD) :
    (entryAt m c main_v0 : S16x1024x2304.Idx → EReal)
      = shapeCast S16x1024x2304 (m ((c : Thread nD τ).loc main_arg0)) shapeCasts_S16x1024x48x48_S16x1024x2304 := by
  show StableHlo.after hostOps0 (fun b => m (c, b)) (Proc.devRef .tc main_v0) = _
  after_results
  rfl

end Cert.KernelIdeal.Region

end
-- ==== Proof.SoftmaxShift.lean ====
/-
  Softmax weights do not change when a constant is added to every score, for rows of real scores.

  A fold of max from minus infinity over all 1024 channels is the supremum of the row. For a row of real
  numbers that supremum is attained at some channel and bounds every entry, so it is itself a real number.
  Hence the maximum of the negated energies is minus the least energy, the largest energy is a real number M,
  and the maximum of the distances M - e d is M less the least energy. Subtracting, both shifted rows at d are
  (least energy) - e d: the constant M cancels, which is legitimate because every quantity is a real number.

  An energy is a finite sum of products of real numbers, hence a real number; so the kernel's weights and the
  reference's weights agree, and with them the two results up to the residual term.
-/
import proofs.«120363_j1735166787958_1_alg».proof.Proof.Attn

noncomputable section

namespace Cert.Attn

open Idealize.ShloMosaic Idealize.ShloMosaic.ValueIdx

/-- The starting value of both maxima is the bottom of the extended reals. -/
theorem negInf_eq_bot : negInf = ⊥ := by
  simp [negInf, Ideal.ofBits, Ideal.ieee]

/-- The fold of max from minus infinity is the supremum. -/
theorem fold_max_eq_sup (g : Fin 1024 → EReal) :
    Finset.univ.fold max negInf g = Finset.univ.sup g := by
  rw [negInf_eq_bot]
  rfl

/-- For a row of real numbers the fold of max is attained, and the attaining entry is the largest. -/
theorem fold_max_real (r : Fin 1024 → ℝ) :
    ∃ d₀, Finset.univ.fold max negInf (fun d => (r d : EReal)) = (r d₀ : EReal) ∧ ∀ d, r d ≤ r d₀ := by
  rw [fold_max_eq_sup]
  obtain ⟨d₀, -, h⟩ :=
    Finset.exists_mem_eq_sup Finset.univ Finset.univ_nonempty (fun d => (r d : EReal))
  refine ⟨d₀, h, fun d => ?_⟩
  have hle := Finset.le_sup (f := fun d => (r d : EReal)) (Finset.mem_univ d)
  rw [h] at hle
  exact EReal.coe_le_coe_iff.mp hle

/-- For a row of real numbers r: the negated row less its maximum is the row of distances below the largest
    entry less its maximum. With m the least entry and M the largest, both are m - r d. -/
theorem shifted_real (r : Fin 1024 → ℝ) :
    shifted (fun d => (0 : EReal) - (r d : EReal))
      = shifted (fun d => Finset.univ.fold max negInf (fun d' => (r d' : EReal)) - (r d : EReal)) := by
  -- the largest entry, attained at d₂
  obtain ⟨d₂, h₂, -⟩ := fold_max_real r
  -- the largest negated entry, attained at d₁: r d₁ is a least entry
  obtain ⟨d₁, h₁, hmin₁⟩ := fold_max_real (fun d => -(r d))
  -- the largest distance, attained at d₃: r d₃ is a least entry too
  obtain ⟨d₃, h₃, hmin₃⟩ := fold_max_real (fun d => r d₂ - r d)
  have h13 : r d₁ = r d₃ :=
    le_antisymm (by have := hmin₁ d₃; linarith) (by have := hmin₃ d₁; linarith)
  have hneg : (fun d => (0 : EReal) - (r d : EReal)) = fun d => ((-(r d) : ℝ) : EReal) := by
    funext d
    simp
  have hgap : (fun d => Finset.univ.fold max negInf (fun d' => (r d' : EReal)) - (r d : EReal))
      = fun d => ((r d₂ - r d : ℝ) : EReal) := by
    funext d
    rw [h₂, EReal.coe_sub]
  have hR₁ : rowMax (fun d => (0 : EReal) - (r d : EReal)) = ((-(r d₁) : ℝ) : EReal) := by
    unfold rowMax
    rw [hneg, h₁, negInf_eq_bot]
    exact max_eq_right bot_le
  have hR₃ : rowMax (fun d => Finset.univ.fold max negInf (fun d' => (r d' : EReal)) - (r d : EReal))
      = ((r d₂ - r d₃ : ℝ) : EReal) := by
    unfold rowMax
    rw [hgap, h₃, negInf_eq_bot]
    exact max_eq_right bot_le
  funext d
  simp only [shifted]
  rw [hR₁, hR₃, h₂, h13, zero_sub, ← EReal.coe_neg, ← EReal.coe_sub, ← EReal.coe_sub,
    ← EReal.coe_sub]
  -- in the real numbers: -r d - -m = M - r d - (M - m)
  exact congrArg Real.toEReal (by ring)

/-- The negated row and the row of distances below the maximum have the same entries less their maxima. -/
theorem shifted_neg_eq_shifted_gap (e : Fin 1024 → EReal) (he : ∀ d, ∃ r : ℝ, e d = (r : EReal)) :
    shifted (fun d => 0 - e d) = shifted (fun d => Finset.univ.fold max negInf e - e d) := by
  choose r hr using he
  obtain rfl : e = fun d => (r d : EReal) := funext hr
  exact shifted_real r

/-- A finite sum of real numbers is a real number. -/
theorem sum_real {ι : Type} (s : Finset ι) (f : ι → EReal)
    (hf : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨x, hx⟩ := hf a (Finset.mem_insert_self a s)
    obtain ⟨y, hy⟩ := ih (fun i hi => hf i (Finset.mem_insert_of_mem hi))
    exact ⟨x + y, by rw [Finset.sum_insert ha, hx, hy, EReal.coe_add]⟩

/-- The energies of a real input are real numbers. -/
theorem energy_real (q : Flat.Idx → EReal) (hq : ∀ i, ∃ r : ℝ, q i = (r : EReal)) (b : Fin 16)
    (c d : Fin 1024) : ∃ r : ℝ, energy q b c d = (r : EReal) := by
  unfold energy
  apply sum_real
  intro n _
  obtain ⟨x, hx⟩ := hq (ix3 b c n)
  obtain ⟨y, hy⟩ := hq (ix3 b d n)
  exact ⟨x * y, by rw [hx, hy, EReal.coe_mul]⟩

/-- The kernel's weights are the reference's weights. -/
theorem weight_neg_eq_weight_gap (q : Flat.Idx → EReal) (hq : ∀ i, ∃ r : ℝ, q i = (r : EReal))
    (b : Fin 16) (c : Fin 1024) : weight (negScores q b c) = weight (gapScores q b c) :=
  weight_congr (shifted_neg_eq_shifted_gap _ (energy_real q hq b c))

/-- The kernel's result is the reference's product plus the residual. -/
theorem kernelOut_eq (q : Flat.Idx → EReal) (hq : ∀ i, ∃ r : ℝ, q i = (r : EReal)) :
    kernelOut q = fun i => referenceOut q i + q i := by
  funext i
  unfold kernelOut referenceOut attend
  rw [weight_neg_eq_weight_gap q hq (i 0) (i 1)]

end Cert.Attn

end
-- ==== Proof.FiniteInputs.lean ====
/-
  The precondition, decoded: every entry of the input is a real number.

  The precondition takes the absolute value of every entry, compares it with plus infinity (strictly below),
  and reduces the comparisons by "and" over all four axes into a single truth value; it is assumed to be 1.
  A reduction by "and" into a single value that is 1 met a 1 at every index, so at every index the absolute
  value of the entry is strictly below plus infinity. On the extended reals the absolute value is
  max x (-x), which is plus infinity at both infinite values; so the entry is neither of them, and an
  extended real that is neither infinite value is a real number.
-/
import proofs.«120363_j1735166787958_1_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx
open Cert.Pre_finite_inputs

/-- The rank-0 shape has one index. -/
instance : Subsingleton S_.Idx := ⟨fun a b => funext fun d => d.elim0⟩

/-- The constant the precondition compares against is the top of the extended reals. -/
theorem posInf_eq_top : Ideal.ofBits .f32 0x7F800000#32 = (⊤ : EReal) := by
  simp [Ideal.ofBits, Ideal.ieee]

/-- An extended real whose absolute value is strictly below plus infinity is a real number. -/
theorem real_of_abs_lt (y : EReal)
    (h : Ideal.cmp .olt (max y (-y)) (Ideal.ofBits .f32 0x7F800000#32) = 1#1) :
    ∃ r : ℝ, y = (r : EReal) := by
  rw [posInf_eq_top] at h
  have hlt : max y (-y) < ⊤ := by
    by_contra hn
    simp [Ideal.cmp, hn] at h
  induction y using EReal.rec with
  | bot => simp at hlt
  | coe r => exact ⟨r, rfl⟩
  | top => simp at hlt

/-- THE PRECONDITION DECODED: every entry of the input is a real number. -/
theorem real_of_pre (x : FVec Ideal S16x1024x48x48 .f32)
    (h : Cert.Pre_finite_inputs.fn (F := Ideal) x = fun _ => 1#1) :
    ∀ i, ∃ r : ℝ, x i = (r : EReal) := by
  intro i
  have e := congrFun h ix0
  dsimp only [Cert.Pre_finite_inputs.fn] at e
  have hi := Host.reduce_andi_all _ _ _ _ _ e i
  exact real_of_abs_lt (x i) hi

end Cert.Finite

end
-- ==== Proof.RefRead.lean ====
/-
  The reference program's result, read index by index, is the channel attention of Attn plus the input.

  Stage by stage, at batch b, channels c and d, position n, with q the input reshaped to 16 x 1024 x 2304:
  the first product at (b, c, d) is the energy of c and d; a reduction by maximum over the last axis from
  minus infinity is the fold of max over that axis's 1024 coordinates; so the first difference is the
  energies' distances below their largest (the gap scores), the second maximum is that row's maximum, the
  second difference the row less its maximum, the exponential and the sum over d the softmax's numerator
  and denominator (the sum starts from the word of 0, which is 0), the quotient the softmax weight, and the
  second product the weighted sum of the rows of batch b at position n. Reshaping back and adding the input
  gives the claim.
-/
import proofs.«120363_j1735166787958_1_alg».proof.Proof.Gen.ReferenceIdeal.Read
import proofs.«120363_j1735166787958_1_alg».proof.Proof.Attn

noncomputable section

namespace Cert.ReferenceIdeal.RefValue

open Cert.ReferenceIdeal Cert.ReferenceIdeal.Gen Cert.ReferenceIdeal.Read Idealize.ShloMosaic Idealize.ShloMosaic.ValueIdx

/-! ## Indices: the composed index functions at an index given by coordinates -/

theorem lidx_v1 (b : Fin 16) (c d : Fin 1024) (k : Fin 2304) :
    lidx_main_v1 (ix3 b c d) k = ix3 b c k :=
  funext fun a => Fin.ext (by match a with | ⟨0, _⟩ => rfl | ⟨1, _⟩ => rfl | ⟨2, _⟩ => rfl)

theorem ridx_v1 (b : Fin 16) (c d : Fin 1024) (k : Fin 2304) :
    ridx_main_v1 (ix3 b c d) k = ix3 b d k :=
  funext fun a => Fin.ext (by match a with | ⟨0, _⟩ => rfl | ⟨1, _⟩ => rfl | ⟨2, _⟩ => rfl)

theorem idx_v3_v4 (b : Fin 16) (c d : Fin 1024) :
    idx_main_v3 (idx_main_v4 (ix3 b c d)) = ix2 b c :=
  funext fun a => Fin.ext (by match a with | ⟨0, _⟩ => rfl | ⟨1, _⟩ => rfl)

theorem idx_v9_v10 (b : Fin 16) (c d : Fin 1024) :
    idx_main_v9 (idx_main_v10 (ix3 b c d)) = ix2 b c :=
  funext fun a => Fin.ext (by match a with | ⟨0, _⟩ => rfl | ⟨1, _⟩ => rfl)

theorem idx_v14_v15 (b : Fin 16) (c d : Fin 1024) :
    idx_main_v14 (idx_main_v15 (ix3 b c d)) = ix2 b c :=
  funext fun a => Fin.ext (by match a with | ⟨0, _⟩ => rfl | ⟨1, _⟩ => rfl)

theorem idx_v13 (b : Fin 16) (c k : Fin 1024) :
    idx_main_v13 (ix2 b c) k = ix3 b c k :=
  funext fun a => Fin.ext (by match a with | ⟨0, _⟩ => rfl | ⟨1, _⟩ => rfl | ⟨2, _⟩ => rfl)

theorem lidx_v17 (b : Fin 16) (c : Fin 1024) (n : Fin 2304) (k : Fin 1024) :
    lidx_main_v17 (ix3 b c n) k = ix3 b c k :=
  funext fun a => Fin.ext (by match a with | ⟨0, _⟩ => rfl | ⟨1, _⟩ => rfl | ⟨2, _⟩ => rfl)

theorem ridx_v17 (b : Fin 16) (c : Fin 1024) (n : Fin 2304) (k : Fin 1024) :
    ridx_main_v17 (ix3 b c n) k = ix3 b k n :=
  funext fun a => Fin.ext (by match a with | ⟨0, _⟩ => rfl | ⟨1, _⟩ => rfl | ⟨2, _⟩ => rfl)

/-! ## A reduction by maximum over the last axis is the fold of max over its coordinates -/

/-- The index (b, c) of the reduced array with coordinate k put back on the last axis is (b, c, k). -/
theorem lift_ix3 (h : S16x1024x1024.Reduces [2] S16x1024) (b : Fin 16) (c : Fin 1024)
    (k : Fin (S16x1024x1024.size 2)) : h.lift (ix2 b c) k = ix3 b c (⟨k.val, k.isLt⟩ : Fin 1024) := by
  funext a
  apply Fin.ext
  match a with
  | ⟨0, _⟩ => rfl
  | ⟨1, _⟩ => rfl
  | ⟨2, _⟩ => rfl

/-- From minus infinity, the reduction by maximum over the last axis, at (b, c), is the fold of max over d. -/
theorem rowFold (y : FVec Ideal S16x1024x1024 .f32) (b : Fin 16) (c : Fin 1024) :
    Host.reduce (FloatOps.maximumf (F := Ideal) (φ := .f32)) y (constant (F := Ideal) S_ .f32 0xFF800000#32)
        reducesTo_S16x1024x1024_S16x1024_d2 h_S_ (ix2 b c)
      = (Finset.univ : Finset (Fin 1024)).fold max Cert.Attn.negInf (fun d => y (ix3 b c d)) := by
  have h : S16x1024x1024.Reduces [2] S16x1024 := by decide
  refine (Host.reduce_eq_fold_single (FloatOps.maximumf (F := Ideal) (φ := .f32)) y _
    reducesTo_S16x1024x1024_S16x1024_d2 h h_S_ (ix2 b c)).trans ?_
  have hf : (y ∘ h.lift (ix2 b c)) = fun k : Fin 1024 => y (ix3 b c k) :=
    funext fun k => congrArg y (lift_ix3 h b c k)
  exact congrArg (fun f => Finset.fold max Cert.Attn.negInf f (Finset.univ : Finset (Fin 1024))) hf

/-! ## The stages -/

section Stages

variable (x : (⟨S16x1024x48x48, .f32⟩ : BufTy).Contents (Elt Ideal))

/-- The first product at (b, c, d) is the energy of channels c and d of batch b. -/
theorem v1_eq (b : Fin 16) (c d : Fin 1024) :
    val_main_v1 (F := Ideal) x (ix3 b c d) = Cert.Attn.energy (val_main_v0 (F := Ideal) x) b c d := by
  rw [val_main_v1_apply]
  unfold Cert.Attn.energy
  refine Finset.sum_congr rfl fun n _ => ?_
  rw [lidx_v1, ridx_v1]

/-- The first maximum at (b, c) is the fold of max over the energies of row c. -/
theorem v2_eq (b : Fin 16) (c : Fin 1024) :
    val_main_v2 (F := Ideal) x (ix2 b c)
      = (Finset.univ : Finset (Fin 1024)).fold max Cert.Attn.negInf
          (Cert.Attn.energy (val_main_v0 (F := Ideal) x) b c) := by
  unfold val_main_v2
  refine (rowFold (val_main_v1 (F := Ideal) x) b c).trans ?_
  exact congrArg (fun f => Finset.fold max Cert.Attn.negInf f (Finset.univ : Finset (Fin 1024)))
    (funext fun d => v1_eq x b c d)

/-- The first difference at (b, c, d) is the gap score: the largest energy of the row less the energy. -/
theorem v5_eq (b : Fin 16) (c d : Fin 1024) :
    val_main_v5 (F := Ideal) x (ix3 b c d) = Cert.Attn.gapScores (val_main_v0 (F := Ideal) x) b c d := by
  rw [val_main_v5_apply, val_main_v4_apply, val_main_v3_apply, idx_v3_v4, v2_eq, v1_eq]
  rfl

/-- The second maximum's reduction at (b, c) is the fold of max over the gap scores of row c. -/
theorem v6_eq (b : Fin 16) (c : Fin 1024) :
    val_main_v6 (F := Ideal) x (ix2 b c)
      = (Finset.univ : Finset (Fin 1024)).fold max Cert.Attn.negInf
          (Cert.Attn.gapScores (val_main_v0 (F := Ideal) x) b c) := by
  unfold val_main_v6
  refine (rowFold (val_main_v5 (F := Ideal) x) b c).trans ?_
  exact congrArg (fun f => Finset.fold max Cert.Attn.negInf f (Finset.univ : Finset (Fin 1024)))
    (funext fun d => v5_eq x b c d)

/-- The second maximum at (b, c) is the row maximum of the gap scores. -/
theorem v8_eq (b : Fin 16) (c : Fin 1024) :
    val_main_v8 (F := Ideal) x (ix2 b c)
      = Cert.Attn.rowMax (Cert.Attn.gapScores (val_main_v0 (F := Ideal) x) b c) := by
  rw [val_main_v8_apply, val_main_v7_apply, val_main_cst_1_apply, v6_eq]
  rfl

/-- The second difference at (b, c, d) is the gap score less the row's maximum. -/
theorem v11_eq (b : Fin 16) (c d : Fin 1024) :
    val_main_v11 (F := Ideal) x (ix3 b c d)
      = Cert.Attn.shifted (Cert.Attn.gapScores (val_main_v0 (F := Ideal) x) b c) d := by
  rw [val_main_v11_apply, val_main_v10_apply, val_main_v9_apply, idx_v9_v10, v8_eq, v5_eq]
  rfl

/-- The exponential at (b, c, d). -/
theorem v12_eq (b : Fin 16) (c d : Fin 1024) :
    val_main_v12 (F := Ideal) x (ix3 b c d)
      = Ideal.exp (Cert.Attn.shifted (Cert.Attn.gapScores (val_main_v0 (F := Ideal) x) b c) d) := by
  rw [val_main_v12_apply, v11_eq]
  rfl

/-- The sum at (b, c) is the sum of the exponentials over d: the sum's initial value is 0. -/
theorem v13_eq (b : Fin 16) (c : Fin 1024) :
    val_main_v13 (F := Ideal) x (ix2 b c)
      = ∑ d : Fin 1024, Ideal.exp (Cert.Attn.shifted (Cert.Attn.gapScores (val_main_v0 (F := Ideal) x) b c) d) := by
  rw [val_main_v13_apply, val_main_cst_2_apply, Ideal.ofBits_def, Ideal.ofBits_zero_f32, zero_add]
  refine Finset.sum_congr rfl fun d _ => ?_
  rw [idx_v13, v12_eq]

/-- The quotient at (b, c, d) is the softmax weight of score d in the row of gap scores. -/
theorem v16_eq (b : Fin 16) (c d : Fin 1024) :
    val_main_v16 (F := Ideal) x (ix3 b c d)
      = Cert.Attn.weight (Cert.Attn.gapScores (val_main_v0 (F := Ideal) x) b c) d := by
  rw [val_main_v16_apply, val_main_v15_apply, val_main_v14_apply, idx_v14_v15, v13_eq, v12_eq]
  rfl

/-- The second product at (b, c, n) is the weighted sum of the rows of batch b at position n. -/
theorem v17_eq (b : Fin 16) (c : Fin 1024) (n : Fin 2304) :
    val_main_v17 (F := Ideal) x (ix3 b c n)
      = Cert.Attn.attend (Cert.Attn.gapScores (val_main_v0 (F := Ideal) x) b c) (val_main_v0 (F := Ideal) x) b n := by
  rw [val_main_v17_apply]
  unfold Cert.Attn.attend
  refine Finset.sum_congr rfl fun d _ => ?_
  rw [lidx_v17, ridx_v17, v16_eq]

/-- The second product at any flat index is the reference's attention there. -/
theorem v17_referenceOut (j : S16x1024x2304.Idx) :
    val_main_v17 (F := Ideal) x j = Cert.Attn.referenceOut (val_main_v0 (F := Ideal) x) j := by
  obtain ⟨b, c, n, rfl⟩ : ∃ b c n, j = ix3 b c n := ⟨j 0, j 1, j 2, eq_ix3 j⟩
  exact v17_eq x b c n

end Stages

/-- THE REFERENCE READ AT AN INDEX: the attention at the flattened index, plus the input's own entry. -/
theorem reference_eq (x : (⟨S16x1024x48x48, .f32⟩ : BufTy).Contents (Elt Ideal)) (i : S16x1024x48x48.Idx) :
    val_main_v19 (F := Ideal) x i
      = Cert.Attn.referenceOut (val_main_v0 (F := Ideal) x) (idx_main_v18 i) + x i := by
  rw [val_main_v19_apply, val_main_v18_apply, v17_referenceOut]
  rfl

end Cert.ReferenceIdeal.RefValue

end
-- ==== Proof.Bridge.lean ====
/-
  The two idealized programs compute one function of a real-valued input.

  The kernel's program flattens the two spatial axes, leaves in its region's result array the channel
  self-attention of the flattened input plus the input itself (weights: the softmax of the negated
  energies), and reshapes back. The reference flattens, takes the softmax of the energies' distances
  below their row maximum, multiplies by the rows, reshapes back and adds the input. For rows of real
  scores the two softmaxes agree (the constant row maximum cancels), the residual entry of the flattened
  input at the flat position of a four-axis index is the input's entry at that index, and the precondition
  says every entry of the input is a real number.
-/
import proofs.«120363_j1735166787958_1_alg».proof.Defs
import proofs.«120363_j1735166787958_1_alg».proof.Proof.IdealValue
import proofs.«120363_j1735166787958_1_alg».proof.Proof.SoftmaxShift
import proofs.«120363_j1735166787958_1_alg».proof.Proof.FiniteInputs
import proofs.«120363_j1735166787958_1_alg».proof.Proof.RefRead

noncomputable section

namespace Cert.Proof.Bridge

open Idealize.ShloMosaic Idealize.ShloMosaic.TcCoe Idealize.ShloMosaic.ValueIdx Idealize.SL.Sem
open Cert.ReferenceIdeal.Read

/-- A flat array reshaped to four axes, read at an index: the entry at the index's flat position. -/
theorem unflatten_apply {α : Type} (y : Cert.ReferenceIdeal.S16x1024x2304.Idx → α)
    (h : Cert.ReferenceIdeal.S16x1024x2304.ShapeCasts Cert.ReferenceIdeal.S16x1024x48x48) (i : Cert.ReferenceIdeal.S16x1024x48x48.Idx) :
    shapeCast Cert.ReferenceIdeal.S16x1024x48x48 y h i = y (idx_main_v18 i) :=
  shapeCast_apply y h i (idx_main_v18 i) (by
    rw [Shape.rowMajor_val_three, Shape.rowMajor_val_four]
    have h0 : (i 0).val < 16 := (i 0).isLt
    have h1 : (i 1).val < 1024 := (i 1).isLt
    have h2 : (i 2).val < 48 := (i 2).isLt
    have h3 : (i 3).val < 48 := (i 3).isLt
    show (((((i 0).val * 1024 + (i 1).val) * 48 + (i 2).val) * 48 + (i 3).val) / 2359296 * 1024
        + ((((i 0).val * 1024 + (i 1).val) * 48 + (i 2).val) * 48 + (i 3).val) / 2304 % 1024) * 2304
        + ((((i 0).val * 1024 + (i 1).val) * 48 + (i 2).val) * 48 + (i 3).val) % 2304
      = (((i 0).val * 1024 + (i 1).val) * 48 + (i 2).val) * 48 + (i 3).val
    omega)

/-- For a real-valued input the kernel's result — the attention-plus-input function of the flattened input,
    reshaped back — is the reference's result. -/
theorem kernel_eq_reference (x : Cert.ReferenceIdeal.S16x1024x48x48.Idx → EReal) (hx : ∀ i, ∃ r : ℝ, x i = (r : EReal)) :
    shapeCast Cert.ReferenceIdeal.S16x1024x48x48
        (Cert.Attn.kernelOut (shapeCast Cert.ReferenceIdeal.S16x1024x2304 x Cert.ReferenceIdeal.Gen.shapeCasts_S16x1024x48x48_S16x1024x2304))
        Cert.ReferenceIdeal.Gen.shapeCasts_S16x1024x2304_S16x1024x48x48
      = val_main_v19 (F := Ideal) x := by
  funext i
  have hq : ∀ j, ∃ r : ℝ, val_main_v0 (F := Ideal) x j = (r : EReal) := fun j => by
    rw [val_main_v0_apply]; exact hx _
  have hback : val_main_v0 (F := Ideal) x (idx_main_v18 i) = x i :=
    (unflatten_apply (val_main_v0 (F := Ideal) x) Cert.ReferenceIdeal.Gen.shapeCasts_S16x1024x2304_S16x1024x48x48 i).symm.trans
      (congrFun (shapeCast_shapeCast x Cert.ReferenceIdeal.Gen.shapeCasts_S16x1024x48x48_S16x1024x2304
        Cert.ReferenceIdeal.Gen.shapeCasts_S16x1024x2304_S16x1024x48x48) i)
  rw [Cert.ReferenceIdeal.RefValue.reference_eq x i]
  refine (unflatten_apply _ _ i).trans ?_
  show Cert.Attn.kernelOut (val_main_v0 (F := Ideal) x) (idx_main_v18 i) = _
  rw [Cert.Attn.kernelOut_eq _ hq]
  show Cert.Attn.referenceOut (val_main_v0 (F := Ideal) x) (idx_main_v18 i) + val_main_v0 (F := Ideal) x (idx_main_v18 i) = _
  rw [hback]

/-- From memories agreeing on the argument, both idealized programs run and end with equal results: the
    kernel's run ends at its result function of the flattened argument, reshaped; the reference's at its
    composed term; for the real-valued argument the precondition grants, the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => val_main_v19 (F := Ideal) (m ((c.tc : Thread Cert.KernelIdeal.nD Cert.KernelIdeal.τ).loc Cert.KernelIdeal.main_arg0)), ?_, ?_⟩
  · refine (θ_run Cert.KernelIdeal.defs _ _).mono (fun r h c => ⟨?_, (h c).2.1⟩) (Cert.KernelIdeal.Region.run_main (F := Ideal) m ρ)
    rw [(h c).2.2, Cert.KernelIdeal.Region.result_array, Cert.KernelIdeal.Region.flat_input]
    exact kernel_eq_reference _ (Cert.Finite.real_of_pre _ (hpre c))
  · refine (θ_run Cert.ReferenceIdeal.defs _ _).mono (fun _ h c => ⟨?_, (h c).2⟩) (Cert.ReferenceIdeal.Value.run (F := Ideal) m' ρ')
    rw [(h c).1, val_main_v19_eq, hagree c]

end Cert.Proof.Bridge

end
-- ==== Proof.lean ====
/-
  The certificate of the channel self-attention kernel against its jnp reference.

  The kernel's program is a reshape, one pipelined region over a 16 x 4 grid whose two input windows are
  blocks of ONE array (the query tile and the whole key/value batch of the flattened input), and a reshape
  back. Its frame — it runs to the end, faults nowhere, leaves its argument unchanged — is proved once for
  both readings of the program, the word-level one and the idealized one: the shared array is held in two
  halves of its share, one per window, the body is one load of each input block and one covering store, and
  the last reshape runs on the two buffers it touches. The reference has no kernel; its frame is its run.
  The idealization rewrote nothing. At the extended reals the kernel's result is the reference's for every
  real-valued input: softmax weights do not change when the row maximum of the energies is added to every
  negated energy, and the precondition makes every entry of the input a real number.
-/
import proofs.«120363_j1735166787958_1_alg».proof.Defs
import proofs.«120363_j1735166787958_1_alg».proof.Proof.WordRun
import proofs.«120363_j1735166787958_1_alg».proof.Proof.IdealRun
import proofs.«120363_j1735166787958_1_alg».proof.Proof.Bridge
import proofs.«120363_j1735166787958_1_alg».proof.Proof.Gen.Kernel
import proofs.«120363_j1735166787958_1_alg».proof.Proof.Gen.KernelIdeal
import proofs.«120363_j1735166787958_1_alg».proof.Proof.Gen.ReferenceIdeal
import proofs.«120363_j1735166787958_1_alg».proof.Proof.Gen.ReferenceIdeal.Run
import proofs.«120363_j1735166787958_1_alg».proof.Proof.Gen.Pre_finite_inputs
import Idealize.ShloMosaic.Adequacy
import Idealize.ShloMosaic.Init

noncomputable section

namespace Cert.Proof

open Idealize.ShloMosaic Idealize.SL.Sem

/-- The word-level program runs, faults nowhere, and keeps its argument. -/
theorem frame_kernel : Cert.frame_Kernel (hKernel := Cert.Kernel.Gen.facts) (hPre_finite_inputs := Cert.Pre_finite_inputs.Gen.facts) :=
  fun m ρ _ => Cert.Kernel.Region.frame (F := Bits) m ρ

/-- So does the idealized program. -/
theorem frame_kernelIdeal : Cert.frame_KernelIdeal (hKernelIdeal := Cert.KernelIdeal.Gen.facts) (hPre_finite_inputs := Cert.Pre_finite_inputs.Gen.facts) :=
  fun m ρ _ => Cert.KernelIdeal.Region.frame (F := Ideal) m ρ

/-- The reference is a straight line of host operations: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.Bridge.algebraic⟩

end Cert.Proof

end
